-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x16 .f32) (main_arg5 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x16 : Shape := ⟨2, ![100000, 16]⟩
abbrev S5000x16 : Shape := ⟨2, ![5000, 16]⟩
abbrev S1700000x16 : Shape := ⟨2, ![1700000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x16, .f32⟩
  | .hbm, ⟨66, _⟩ => ⟨S1700000x1, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x16, .f32⟩
  | .hbm, ⟨76, _⟩ => ⟨S1700000x16, .f32⟩
  | .hbm, ⟨77, _⟩ => ⟨S1700000x16, .f32⟩
  | .hbm, ⟨78, _⟩ => ⟨S_, .f32⟩
  | .hbm, ⟨79, _⟩ => ⟨S100000x16, .f32⟩
  | .hbm, ⟨80, _⟩ => ⟨S1700000x1, .i32⟩
  | .hbm, ⟨81, _⟩ => ⟨S100000x16, .f32⟩
  | .hbm, ⟨82, _⟩ => ⟨S1x16, .f32⟩
  | .hbm, ⟨83, _⟩ => ⟨S100000x16, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S1x16, .f32⟩
  | .local _ .vmem, ⟨18, _⟩ => ⟨S5000x16, .f32⟩
  | .local _ .vmem, ⟨19, _⟩ => ⟨S5000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x16_S5000x16_1_0_0_1_n_n_wf : DotDims.WF S5000x128 S128x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .f32 = 32 ∨ (Rect.block (s := S100000x16) S5000x16.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x16, .f32⟩
  | .hbm, ⟨70, _⟩ => ⟨S1700000x1, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x16, .f32⟩
  | .hbm, ⟨80, _⟩ => ⟨S1700000x16, .f32⟩
  | .hbm, ⟨81, _⟩ => ⟨S1700000x16, .f32⟩
  | .hbm, ⟨82, _⟩ => ⟨S_, .f32⟩
  | .hbm, ⟨83, _⟩ => ⟨S100000x16, .f32⟩
  | .hbm, ⟨84, _⟩ => ⟨S1700000x1, .i32⟩
  | .hbm, ⟨85, _⟩ => ⟨S100000x16, .f32⟩
  | .hbm, ⟨86, _⟩ => ⟨S1x16, .f32⟩
  | .hbm, ⟨87, _⟩ => ⟨S100000x16, .f32⟩
  | .hbm, ⟨88, _⟩ => ⟨S100000x16, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x16, .f32⟩
  | .hbm, ⟨96, _⟩ => ⟨S100000x16, .f32⟩
  | .hbm, ⟨97, _⟩ => ⟨S100000x16, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x16, .f32⟩
  | .hbm, ⟨103, _⟩ => ⟨S100000x16, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The kernel program's run with its result array named. The program is four tiled regions (two dense projections, a
  bias-and-relu pass, a bias-and-log-softmax pass) among stretches of host operations; the contents of every buffer at
  each boundary between a stretch and a region form a fold from the launch memory. Every weakly fair execution ends with
  each unscoped buffer at the last boundary's contents; read at the program's result buffer this names the result array,
  and read at the six arguments it returns the launch contents.
-/
import proofs.«100217_j16801912062046_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result array at the last
    boundary's contents of its buffer and the six argument arrays as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.GraphNorm.lean ====
/-
  The graph normalisation, read on the kernel program's side. Before its first region the kernel program runs the same host
  operations as the reference: the edge list with the self loops appended (sources and destinations), the in-degrees by a
  scatter-add of ones, their inverse square roots where positive, and per edge the product of the two end points' factors.
  Read at each boundary between the stretches, each of these buffers holds the reference's own stage of the edge array; the
  argument arrays, which no host operation writes, are kept.
-/
import proofs.«100217_j16801912062046_1_alg».proof.Proof.Gen.KernelIdeal.Frame
import proofs.«100217_j16801912062046_1_alg».proof.Proof.RefRead
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg) (c : Dev nD)

/-- The argument arrays at launch, typed as the reference's stages take them. -/
abbrev arg0 : (⟨Cert.ReferenceIdeal.S100000x256, .f32⟩ : BufTy).Contents (Elt F) := m ((c.tc : Thread nD τ).loc main_arg0)
abbrev arg1 : (⟨Cert.ReferenceIdeal.S2x1600000, .i32⟩ : BufTy).Contents (Elt F) := m ((c.tc : Thread nD τ).loc main_arg1)
abbrev arg2 : (⟨Cert.ReferenceIdeal.S256x128, .f32⟩ : BufTy).Contents (Elt F) := m ((c.tc : Thread nD τ).loc main_arg2)
abbrev arg3 : (⟨Cert.ReferenceIdeal.S128, .f32⟩ : BufTy).Contents (Elt F) := m ((c.tc : Thread nD τ).loc main_arg3)
abbrev arg4 : (⟨Cert.ReferenceIdeal.S128x16, .f32⟩ : BufTy).Contents (Elt F) := m ((c.tc : Thread nD τ).loc main_arg4)
abbrev arg5 : (⟨Cert.ReferenceIdeal.S16, .f32⟩ : BufTy).Contents (Elt F) := m ((c.tc : Thread nD τ).loc main_arg5)

/-- A buffer that no operation of a stretch writes holds after the stretch what it held before. -/
macro "stretch_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## After the first stretch: the edge list with self loops, the degrees, their inverse square roots -/

/-- The sources with the self loops appended. -/
theorem W1_v3 : W1 m ρ c (Proc.devRef .tc main_v3) = Cert.ReferenceIdeal.Read.val_main_v3 (F := F) (arg1 m c) := by
  show StableHlo.after hostOps0 (W0 m ρ c) (Proc.devRef .tc main_v3) = _
  after_results_simp
  rfl

/-- The destinations with the self loops appended. -/
theorem W1_v6 : W1 m ρ c (Proc.devRef .tc main_v6) = Cert.ReferenceIdeal.Read.val_main_v6 (F := F) (arg1 m c) := by
  show StableHlo.after hostOps0 (W0 m ρ c) (Proc.devRef .tc main_v6) = _
  after_results_simp
  rfl

/-- Which nodes have a positive degree. -/
theorem W1_v12 : W1 m ρ c (Proc.devRef .tc main_v12) = Cert.ReferenceIdeal.Read.val_main_v12 (F := F) (arg1 m c) := by
  show StableHlo.after hostOps0 (W0 m ρ c) (Proc.devRef .tc main_v12) = _
  after_results_simp
  rfl

/-- The inverse square roots of the degrees. -/
theorem W1_v13 : W1 m ρ c (Proc.devRef .tc main_v13) = Cert.ReferenceIdeal.Read.val_main_v13 (F := F) (arg1 m c) := by
  show StableHlo.after hostOps0 (W0 m ρ c) (Proc.devRef .tc main_v13) = _
  after_results_simp
  rfl

/-- The zero that replaces the factor of a node of degree zero. -/
theorem W1_cst_2 : W1 m ρ c (Proc.devRef .tc main_cst_2) = Cert.ReferenceIdeal.Read.val_main_cst_2 (F := F) := by
  show StableHlo.after hostOps0 (W0 m ρ c) (Proc.devRef .tc main_cst_2) = _
  after_results_simp
  rfl

/-! ## After the second stretch: each node's factor -/

theorem W2_v14 : W2 m ρ c (Proc.devRef .tc main_v14) = Cert.ReferenceIdeal.Read.val_main_v14 (F := F) (arg1 m c) := by
  show StableHlo.after hostOps0_1 (W1 m ρ c) (Proc.devRef .tc main_v14) = _
  have h12 := W1_v12 m ρ c
  have h13 := W1_v13 m ρ c
  have hc := W1_cst_2 m ρ c
  generalize W1 m ρ c = Wv at h12 h13 hc ⊢
  after_results_simp
  rw [h12, h13, hc]
  rfl

theorem W2_v3 : W2 m ρ c (Proc.devRef .tc main_v3) = Cert.ReferenceIdeal.Read.val_main_v3 (F := F) (arg1 m c) :=
  Eq.trans (by stretch_keeps hostOps0_1) (W1_v3 m ρ c)

theorem W2_v6 : W2 m ρ c (Proc.devRef .tc main_v6) = Cert.ReferenceIdeal.Read.val_main_v6 (F := F) (arg1 m c) :=
  Eq.trans (by stretch_keeps hostOps0_1) (W1_v6 m ρ c)

/-! ## After the third stretch: each edge's weight -/

theorem W3_v29 : W3 m ρ c (Proc.devRef .tc main_v29) = Cert.ReferenceIdeal.Read.val_main_v29 (F := F) (arg1 m c) := by
  show StableHlo.after hostOps0_2 (W2 m ρ c) (Proc.devRef .tc main_v29) = _
  have h3 := W2_v3 m ρ c
  have h6 := W2_v6 m ρ c
  have h14 := W2_v14 m ρ c
  generalize W2 m ρ c = Wv at h3 h6 h14 ⊢
  after_results_simp
  rw [h3, h6, h14]
  rfl

theorem W3_v3 : W3 m ρ c (Proc.devRef .tc main_v3) = Cert.ReferenceIdeal.Read.val_main_v3 (F := F) (arg1 m c) :=
  Eq.trans (by stretch_keeps hostOps0_2) (W2_v3 m ρ c)

theorem W3_v6 : W3 m ρ c (Proc.devRef .tc main_v6) = Cert.ReferenceIdeal.Read.val_main_v6 (F := F) (arg1 m c) :=
  Eq.trans (by stretch_keeps hostOps0_2) (W2_v6 m ρ c)

/-- No host operation before the first region writes an argument array. -/
theorem W3_arg0 : W3 m ρ c (Proc.devRef .tc main_arg0) = arg0 m c :=
  Eq.trans (by stretch_keeps hostOps0_2) (Eq.trans (by stretch_keeps hostOps0_1) (Eq.trans (by stretch_keeps hostOps0) rfl))
theorem W3_arg2 : W3 m ρ c (Proc.devRef .tc main_arg2) = arg2 m c :=
  Eq.trans (by stretch_keeps hostOps0_2) (Eq.trans (by stretch_keeps hostOps0_1) (Eq.trans (by stretch_keeps hostOps0) rfl))
theorem W3_arg3 : W3 m ρ c (Proc.devRef .tc main_arg3) = arg3 m c :=
  Eq.trans (by stretch_keeps hostOps0_2) (Eq.trans (by stretch_keeps hostOps0_1) (Eq.trans (by stretch_keeps hostOps0) rfl))
theorem W3_arg4 : W3 m ρ c (Proc.devRef .tc main_arg4) = arg4 m c :=
  Eq.trans (by stretch_keeps hostOps0_2) (Eq.trans (by stretch_keeps hostOps0_1) (Eq.trans (by stretch_keeps hostOps0) rfl))
theorem W3_arg5 : W3 m ρ c (Proc.devRef .tc main_arg5) = arg5 m c :=
  Eq.trans (by stretch_keeps hostOps0_2) (Eq.trans (by stretch_keeps hostOps0_1) (Eq.trans (by stretch_keeps hostOps0) rfl))

end Cert.KernelIdeal.Whole

end
-- ==== Proof.Tiles.lean ====
/-
  Row tiles. An array of 100000 rows is cut into 20 tiles of 5000 consecutive rows. A function that is computed tile by
  tile — each output tile from the input tile of the same rows and one operand shared by all tiles — is one function of the
  whole array: at row n it is the tile function at tile n / 5000, read at row n % 5000 of that tile.
-/
import Idealize.ShloMosaic.Lib.ValueIdx

noncomputable section

namespace Cert.Gcn.Tiles

open Idealize.ShloMosaic Idealize.ShloMosaic.ValueIdx

/-- The tile that row `n` lies in. -/
def tileIx (n : Nat) : Fin 20 := ⟨n / 5000 % 20, Nat.mod_lt _ (by decide)⟩
/-- The row's position inside its tile. -/
def inTile (n : Nat) : Fin 5000 := ⟨n % 5000, Nat.mod_lt _ (by decide)⟩
/-- Row `r` of tile `t`, as a row of the whole array. -/
def rowOf (t : Fin 20) (r : Fin 5000) : Fin 100000 := ⟨(5000 * t.val + r.val) % 100000, Nat.mod_lt _ (by decide)⟩

theorem rowOf_val (t : Fin 20) (r : Fin 5000) : (rowOf t r).val = 5000 * t.val + r.val := by
  have ht := t.isLt; have hr := r.isLt
  show (5000 * t.val + r.val) % 100000 = _
  exact Nat.mod_eq_of_lt (by omega)

theorem tileIx_row (t : Fin 20) (r : Fin 5000) : tileIx (5000 * t.val + r.val) = t := by
  have ht := t.isLt; have hr := r.isLt
  apply Fin.ext
  show (5000 * t.val + r.val) / 5000 % 20 = t.val
  omega

theorem inTile_row (t : Fin 20) (r : Fin 5000) : inTile (5000 * t.val + r.val) = r := by
  have hr := r.isLt
  apply Fin.ext
  show (5000 * t.val + r.val) % 5000 = r.val
  omega

theorem rowOf_tile (n : Fin 100000) : rowOf (tileIx n.val) (inTile n.val) = n := by
  have hn := n.isLt
  apply Fin.ext
  show (5000 * (n.val / 5000 % 20) + n.val % 5000) % 100000 = n.val
  omega

/-- Tile `t` of an array of 100000 rows: its rows 5000 t … 5000 t + 4999. -/
def tile {K : Nat} {α : Type} (A : (⟨2, ![100000, K]⟩ : Shape).Idx → α) (t : Fin 20) :
    (⟨2, ![5000, K]⟩ : Shape).Idx → α :=
  fun y => A (ix2 (rowOf t (y 0)) (y 1))

/-- The whole-array function that a tile-by-tile function `f` computes. -/
def rowwise {K N : Nat} {α β γ : Type}
    (f : ((⟨2, ![5000, K]⟩ : Shape).Idx → α) → β → (⟨2, ![5000, N]⟩ : Shape).Idx → γ)
    (A : (⟨2, ![100000, K]⟩ : Shape).Idx → α) (B : β) : (⟨2, ![100000, N]⟩ : Shape).Idx → γ :=
  fun i => f (tile A (tileIx (i 0).val)) B (ix2 (inTile (i 0).val) (i 1))

/-- At row 5000 t + r the whole-array function is the tile function of tile `t` at row `r`. -/
theorem rowwise_at {K N : Nat} {α β γ : Type}
    (f : ((⟨2, ![5000, K]⟩ : Shape).Idx → α) → β → (⟨2, ![5000, N]⟩ : Shape).Idx → γ)
    (A : (⟨2, ![100000, K]⟩ : Shape).Idx → α) (B : β) (t : Fin 20)
    (j : (⟨2, ![5000, N]⟩ : Shape).Idx) (i : (⟨2, ![100000, N]⟩ : Shape).Idx)
    (hi0 : (i 0).val = 5000 * t.val + (j 0).val) (hi1 : (i 1).val = (j 1).val) :
    rowwise f A B i = f (tile A t) B j := by
  unfold rowwise
  have e1 : tileIx (i 0).val = t := by rw [hi0]; exact tileIx_row t (j 0)
  have e2 : ix2 (inTile (i 0).val) (i 1) = j := by
    funext a
    match a with
    | ⟨0, _⟩ => exact Fin.ext (by rw [hi0]; exact congrArg Fin.val (inTile_row t (j 0)))
    | ⟨1, _⟩ => exact Fin.ext hi1
  rw [e1]
  exact congrArg (f (tile A t) B) e2

/-- Read at a row of the whole array, given as a literal row number. -/
theorem rowwise_row {K N : Nat} {α β γ : Type}
    (f : ((⟨2, ![5000, K]⟩ : Shape).Idx → α) → β → (⟨2, ![5000, N]⟩ : Shape).Idx → γ)
    (A : (⟨2, ![100000, K]⟩ : Shape).Idx → α) (B : β) (r : Fin 100000) (q : Fin N) :
    rowwise f A B (ix2 r q) = f (tile A (tileIx r.val)) B (ix2 (inTile r.val) q) := rfl

/-- A tile read at a row is the array at that row. -/
theorem tile_apply {K : Nat} {α : Type} (A : (⟨2, ![100000, K]⟩ : Shape).Idx → α) (r : Fin 100000) (k : Fin K) :
    tile A (tileIx r.val) (ix2 (inTile r.val) k) = A (ix2 r k) := by
  unfold tile
  refine congrArg A (funext fun a => ?_)
  match a with
  | ⟨0, _⟩ => exact rowOf_tile r
  | ⟨1, _⟩ => rfl

end Cert.Gcn.Tiles

end
-- ==== Proof.Dense1Array.lean ====
/-
  The first dense projection's result array.
  The region runs a matrix product on 20 tiles of 5000 rows: at tile t it reads rows 5000 t … 5000 t + 4999 of its first operand and
  the whole of its second, and writes the same rows of its result. So after the region the result array is ONE function of
  the two operand arrays as the region finds them: row by row, the tile function of the row's tile, read at the row's place
  in the tile. The tiles cover every row, so no entry of the result keeps what it held before.
-/
import proofs.«100217_j16801912062046_1_alg».proof.Proof.Gen.KernelIdeal.Frame
import proofs.«100217_j16801912062046_1_alg».proof.Proof.Tiles
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.Gcn.Tiles
open Idealize.ShloMosaic.Pipeline (Dat)

variable {F : FTy → Type} [FloatOps F]
variable (V : (c : Dev nD) → (b : Ref sig .tc) → Buf (Elt F) ((c : Thread nD τ).loc b))

theorem zero_offsets0 : (![0, 0] : Fin 2 → Nat) = fun _ => 0 := funext fun a => by fin_cases a <;> rfl

/-- A grid point of the region as a tile number. -/
def tileOf0 (t : Fin cfg0.N) : Fin 20 := Fin.cast N_0 t

/-- The printed index maps, decided over the 20 grid points: the first operand and the result move with the point along
    the rows, the second operand stays. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first operand's block at point t is tile t of its array. -/
theorem first_block0 (c : Dev nD) (t : Fin cfg0.N) :
    (iblk0 V c 0 t : Vec F S5000x256 .f32) = tile (V c main_arg0 : S100000x256.Idx → Elt F .f32) (tileOf0 t) := by
  obtain ⟨e0, e1, -, -, -, -⟩ := index_maps0 t
  funext y
  unfold iblk0
  rw [View.read_apply]
  show V c main_arg0 _ = tile (V c main_arg0 : S100000x256.Idx → Elt F .f32) (tileOf0 t) y
  unfold tile
  refine congrArg (V c main_arg0) (funext fun a => Fin.ext ?_)
  match a with
  | ⟨0, _⟩ =>
    refine Eq.trans ?_ (rowOf_val (tileOf0 t) (y 0)).symm
    have hv : (tileOf0 t).val = t.val := rfl
    show win0_0.index t (0 : Fin 2) * 5000 + 1 * (y 0).val = 5000 * (tileOf0 t).val + (y 0).val
    omega
  | ⟨1, _⟩ =>
    show win0_0.index t (1 : Fin 2) * 256 + 1 * (y 1).val = (y 1).val
    omega

/-- The second operand's block at every point is its whole array. -/
theorem second_block0 (c : Dev nD) (t : Fin cfg0.N) :
    (iblk0 V c 1 t : Vec F S256x128 .f32) = (V c main_arg2 : S256x128.Idx → Elt F .f32) := by
  obtain ⟨-, -, e2, e3, -, -⟩ := index_maps0 t
  funext y
  unfold iblk0
  rw [View.read_apply]
  show V c main_arg2 _ = V c main_arg2 y
  refine congrArg (V c main_arg2) (funext fun a => Fin.ext ?_)
  match a with
  | ⟨0, _⟩ =>
    show win0_1.index t (0 : Fin 2) * 256 + 1 * (y 0).val = (y 0).val
    omega
  | ⟨1, _⟩ =>
    show win0_1.index t (1 : Fin 2) * 128 + 1 * (y 1).val = (y 1).val
    omega

/-- What the result array holds after the region, as one function of the operand arrays. -/
def dense1 (A : S100000x256.Idx → Elt F .f32) (B : S256x128.Idx → Elt F .f32) : S100000x128.Idx → Elt F .f32 :=
  rowwise (fun (x0 : S5000x256.Idx → Elt F .f32) (x1 : S256x128.Idx → Elt F .f32) => (k0_pay1 x0 x1 : S5000x128.Idx → Elt F .f32)) A B

/-- What point t writes back is block t of that function. -/
theorem flushed0 (c : Dev nD) (t : Fin cfg0.N) :
    (dat0 V c).flushed 2 t = ((cfg0.win 2).blk t).view.read (Elt F) (dense1 (V c main_arg0) (V c main_arg2)) := by
  obtain ⟨-, -, -, -, e4, e5⟩ := index_maps0 t
  show (cfg0.win 2).cut (grid0.coords t) ((dat0 V c).after 2 t) = _
  rw [after0_2]
  unfold out0_2
  rw [View.canon_unit_zero zero_offsets0]
  simp only [View.ld_unit_zero (S := S5000x256) zero_offsets0, View.ld_unit_zero (S := S256x128) zero_offsets0]
  funext j
  show k0_pay1 (iblk0 V c 0 t) (iblk0 V c 1 t) j = dense1 (V c main_arg0) (V c main_arg2) (((cfg0.win 2).blk t).view.emb j)
  refine (congrArg₂ (fun (a : Vec F S5000x256 .f32) (b : Vec F S256x128 .f32) => k0_pay1 a b j) (first_block0 V c t) (second_block0 V c t)).trans ?_
  unfold dense1
  refine (rowwise_at _ _ _ (tileOf0 t) j _ ?_ ?_).symm
  · show win0_2.index t (0 : Fin 2) * 5000 + 1 * (j 0).val = 5000 * t.val + (j 0).val
    rw [e4]; omega
  · show win0_2.index t (1 : Fin 2) * 128 + 1 * (j 1).val = (j 1).val
    omega

/-- An index of the result array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every row lies in some tile. -/
theorem covered0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e4, e5⟩ := index_maps0 t
  refine ⟨t, flush0_2 t, ?_⟩
  rw [mem_block0]
  intro a
  match a with
  | ⟨0, _⟩ =>
    show win0_2.index t (0 : Fin 2) * 5000 ≤ (i 0).val ∧ (i 0).val < win0_2.index t (0 : Fin 2) * 5000 + 5000
    have ht : t.val = (i 0).val / 5000 := rfl
    omega
  | ⟨1, _⟩ =>
    show win0_2.index t (1 : Fin 2) * 128 ≤ (i 1).val ∧ (i 1).val < win0_2.index t (1 : Fin 2) * 128 + 128
    omega

/-- THE RESULT ARRAY after the region is that function of the operand arrays as the region finds them. -/
theorem result0 (c : Dev nD) : (dat0 V c).arrAt 2 cfg0.N = dense1 (V c main_arg0) (V c main_arg2) :=
  (dat0 V c).arrAt_eq_of_cover 2 (dense1 (V c main_arg0) (V c main_arg2)) (fun t _ => flushed0 V c t) (covered0)

end Cert.KernelIdeal.Whole

end
-- ==== Proof.ReluArray.lean ====
/-
  The bias-and-relu pass's result array.
  The region runs an entrywise sum with a bias row and a maximum with zero on 20 tiles of 5000 rows: at tile t it reads rows 5000 t … 5000 t + 4999 of its first operand and
  the whole of its second, and writes the same rows of its result. So after the region the result array is ONE function of
  the two operand arrays as the region finds them: row by row, the tile function of the row's tile, read at the row's place
  in the tile. The tiles cover every row, so no entry of the result keeps what it held before.
-/
import proofs.«100217_j16801912062046_1_alg».proof.Proof.Gen.KernelIdeal.Frame
import proofs.«100217_j16801912062046_1_alg».proof.Proof.Tiles
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.Gcn.Tiles
open Idealize.ShloMosaic.Pipeline (Dat)

variable {F : FTy → Type} [FloatOps F]
variable (V : (c : Dev nD) → (b : Ref sig .tc) → Buf (Elt F) ((c : Thread nD τ).loc b))

theorem zero_offsets1 : (![0, 0] : Fin 2 → Nat) = fun _ => 0 := funext fun a => by fin_cases a <;> rfl

/-- A grid point of the region as a tile number. -/
def tileOf1 (t : Fin cfg1.N) : Fin 20 := Fin.cast N_1 t

/-- The printed index maps, decided over the 20 grid points: the first operand and the result move with the point along
    the rows, the second operand stays. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first operand's block at point t is tile t of its array. -/
theorem first_block1 (c : Dev nD) (t : Fin cfg1.N) :
    (iblk1 V c 0 t : Vec F S5000x128 .f32) = tile (V c main_v43 : S100000x128.Idx → Elt F .f32) (tileOf1 t) := by
  obtain ⟨e0, e1, -, -, -, -⟩ := index_maps1 t
  funext y
  unfold iblk1
  rw [View.read_apply]
  show V c main_v43 _ = tile (V c main_v43 : S100000x128.Idx → Elt F .f32) (tileOf1 t) y
  unfold tile
  refine congrArg (V c main_v43) (funext fun a => Fin.ext ?_)
  match a with
  | ⟨0, _⟩ =>
    refine Eq.trans ?_ (rowOf_val (tileOf1 t) (y 0)).symm
    have hv : (tileOf1 t).val = t.val := rfl
    show win1_0.index t (0 : Fin 2) * 5000 + 1 * (y 0).val = 5000 * (tileOf1 t).val + (y 0).val
    omega
  | ⟨1, _⟩ =>
    show win1_0.index t (1 : Fin 2) * 128 + 1 * (y 1).val = (y 1).val
    omega

/-- The second operand's block at every point is its whole array. -/
theorem second_block1 (c : Dev nD) (t : Fin cfg1.N) :
    (iblk1 V c 1 t : Vec F S1x128 .f32) = (V c main_v44 : S1x128.Idx → Elt F .f32) := by
  obtain ⟨-, -, e2, e3, -, -⟩ := index_maps1 t
  funext y
  unfold iblk1
  rw [View.read_apply]
  show V c main_v44 _ = V c main_v44 y
  refine congrArg (V c main_v44) (funext fun a => Fin.ext ?_)
  match a with
  | ⟨0, _⟩ =>
    show win1_1.index t (0 : Fin 2) * 1 + 1 * (y 0).val = (y 0).val
    omega
  | ⟨1, _⟩ =>
    show win1_1.index t (1 : Fin 2) * 128 + 1 * (y 1).val = (y 1).val
    omega

/-- What the result array holds after the region, as one function of the operand arrays. -/
def biasRelu (A : S100000x128.Idx → Elt F .f32) (B : S1x128.Idx → Elt F .f32) : S100000x128.Idx → Elt F .f32 :=
  rowwise (fun (x0 : S5000x128.Idx → Elt F .f32) (x1 : S1x128.Idx → Elt F .f32) => (k1_pay1 x0 x1 : S5000x128.Idx → Elt F .f32)) A B

/-- What point t writes back is block t of that function. -/
theorem flushed1 (c : Dev nD) (t : Fin cfg1.N) :
    (dat1 V c).flushed 2 t = ((cfg1.win 2).blk t).view.read (Elt F) (biasRelu (V c main_v43) (V c main_v44)) := by
  obtain ⟨-, -, -, -, e4, e5⟩ := index_maps1 t
  show (cfg1.win 2).cut (grid1.coords t) ((dat1 V c).after 2 t) = _
  rw [after1_2]
  unfold out1_2
  rw [View.canon_unit_zero zero_offsets1]
  simp only [View.ld_unit_zero (S := S5000x128) zero_offsets1, View.ld_unit_zero (S := S1x128) zero_offsets1]
  funext j
  show k1_pay1 (iblk1 V c 0 t) (iblk1 V c 1 t) j = biasRelu (V c main_v43) (V c main_v44) (((cfg1.win 2).blk t).view.emb j)
  refine (congrArg₂ (fun (a : Vec F S5000x128 .f32) (b : Vec F S1x128 .f32) => k1_pay1 a b j) (first_block1 V c t) (second_block1 V c t)).trans ?_
  unfold biasRelu
  refine (rowwise_at _ _ _ (tileOf1 t) j _ ?_ ?_).symm
  · show win1_2.index t (0 : Fin 2) * 5000 + 1 * (j 0).val = 5000 * t.val + (j 0).val
    rw [e4]; omega
  · show win1_2.index t (1 : Fin 2) * 128 + 1 * (j 1).val = (j 1).val
    omega

/-- An index of the result array is in point t's block iff each coordinate is in the block's range on its axis. -/
theorem mem_block1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every row lies in some tile. -/
theorem covered1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, e4, e5⟩ := index_maps1 t
  refine ⟨t, flush1_2 t, ?_⟩
  rw [mem_block1]
  intro a
  match a with
  | ⟨0, _⟩ =>
    show win1_2.index t (0 : Fin 2) * 5000 ≤ (i 0).val ∧ (i 0).val < win1_2.index t (0 : Fin 2) * 5000 + 5000
    have ht : t.val = (i 0).val / 5000 := rfl
    omega
  | ⟨1, _⟩ =>
    show win1_2.index t (1 : Fin 2) * 128 ≤ (i 1).val ∧ (i 1).val < win1_2.index t (1 : Fin 2) * 128 + 128
    omega

/-- THE RESULT ARRAY after the region is that function of the operand arrays as the region finds them. -/
theorem result1 (c : Dev nD) : (dat1 V c).arrAt 2 cfg1.N = biasRelu (V c main_v43) (V c main_v44) :=
  (dat1 V c).arrAt_eq_of_cover 2 (biasRelu (V c main_v43) (V c main_v44)) (fun t _ => flushed1 V c t) (covered1)

end Cert.KernelIdeal.Whole

end
-- ==== Proof.Dense2Array.lean ====
/-
  The second dense projection's result array.
  The region runs a matrix product on 20 tiles of 5000 rows: at tile t it reads rows 5000 t … 5000 t + 4999 of its first operand and
  the whole of its second, and writes the same rows of its result. So after the region the result array is ONE function of
  the two operand arrays as the region finds them: row by row, the tile function of the row's tile, read at the row's place
  in the tile. The tiles cover every row, so no entry of the result keeps what it held before.
-/
import proofs.«100217_j16801912062046_1_alg».proof.Proof.Gen.KernelIdeal.Frame
import proofs.«100217_j16801912062046_1_alg».proof.Proof.Tiles
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.Gcn.Tiles
open Idealize.ShloMosaic.Pipeline (Dat)

variable {F : FTy → Type} [FloatOps F]
variable (V : (c : Dev nD) → (b : Ref sig .tc) → Buf (Elt F) ((c : Thread nD τ).loc b))

theorem zero_offsets2 : (![0, 0] : Fin 2 → Nat) = fun _ => 0 := funext fun a => by fin_cases a <;> rfl

/-- A grid point of the region as a tile number. -/
def tileOf2 (t : Fin cfg2.N) : Fin 20 := Fin.cast N_2 t

/-- The printed index maps, decided over the 20 grid points: the first operand and the result move with the point along
    the rows, the second operand stays. -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The first operand's block at point t is tile t of its array. -/
theorem first_block2 (c : Dev nD) (t : Fin cfg2.N) :
    (iblk2 V c 0 t : Vec F S5000x128 .f32) = tile (V c main_v45 : S100000x128.Idx → Elt F .f32) (tileOf2 t) := by
  obtain ⟨e0, e1, -, -, -, -⟩ := index_maps2 t
  funext y
  unfold iblk2
  rw [View.read_apply]
  show V c main_v45 _ = tile (V c main_v45 : S100000x128.Idx → Elt F .f32) (tileOf2 t) y
  unfold tile
  refine congrArg (V c main_v45) (funext fun a => Fin.ext ?_)
  match a with
  | ⟨0, _⟩ =>
    refine Eq.trans ?_ (rowOf_val (tileOf2 t) (y 0)).symm
    have hv : (tileOf2 t).val = t.val := rfl
    show win2_0.index t (0 : Fin 2) * 5000 + 1 * (y 0).val = 5000 * (tileOf2 t).val + (y 0).val
    omega
  | ⟨1, _⟩ =>
    show win2_0.index t (1 : Fin 2) * 128 + 1 * (y 1).val = (y 1).val
    omega

/-- The second operand's block at every point is its whole array. -/
theorem second_block2 (c : Dev nD) (t : Fin cfg2.N) :
    (iblk2 V c 1 t : Vec F S128x16 .f32) = (V c main_arg4 : S128x16.Idx → Elt F .f32) := by
  obtain ⟨-, -, e2, e3, -, -⟩ := index_maps2 t
  funext y
  unfold iblk2
  rw [View.read_apply]
  show V c main_arg4 _ = V c main_arg4 y
  refine congrArg (V c main_arg4) (funext fun a => Fin.ext ?_)
  match a with
  | ⟨0, _⟩ =>
    show win2_1.index t (0 : Fin 2) * 128 + 1 * (y 0).val = (y 0).val
    omega
  | ⟨1, _⟩ =>
    show win2_1.index t (1 : Fin 2) * 16 + 1 * (y 1).val = (y 1).val
    omega

/-- What the result array holds after the region, as one function of the operand arrays. -/
def dense2 (A : S100000x128.Idx → Elt F .f32) (B : S128x16.Idx → Elt F .f32) : S100000x16.Idx → Elt F .f32 :=
  rowwise (fun (x0 : S5000x128.Idx → Elt F .f32) (x1 : S128x16.Idx → Elt F .f32) => (k2_pay1 x0 x1 : S5000x16.Idx → Elt F .f32)) A B

/-- What point t writes back is block t of that function. -/
theorem flushed2 (c : Dev nD) (t : Fin cfg2.N) :
    (dat2 V c).flushed 2 t = ((cfg2.win 2).blk t).view.read (Elt F) (dense2 (V c main_v45) (V c main_arg4)) := by
  obtain ⟨-, -, -, -, e4, e5⟩ := index_maps2 t
  show (cfg2.win 2).cut (grid2.coords t) ((dat2 V c).after 2 t) = _
  rw [after2_2]
  unfold out2_2
  rw [View.canon_unit_zero zero_offsets2]
  simp only [View.ld_unit_zero (S := S5000x128) zero_offsets2, View.ld_unit_zero (S := S128x16) zero_offsets2]
  funext j
  show k2_pay1 (iblk2 V c 0 t) (iblk2 V c 1 t) j = dense2 (V c main_v45) (V c main_arg4) (((cfg2.win 2).blk t).view.emb j)
  refine (congrArg₂ (fun (a : Vec F S5000x128 .f32) (b : Vec F S128x16 .f32) => k2_pay1 a b j) (first_block2 V c t) (second_block2 V c t)).trans ?_
  unfold dense2
  refine (rowwise_at _ _ _ (tileOf2 t) j _ ?_ ?_).symm
  · show win2_2.index t (0 : Fin 2) * 5000 + 1 * (j 0).val = 5000 * t.val + (j 0).val
    rw [e4]; omega
  · show win2_2.index t (1 : Fin 2) * 16 + 1 * (j 1).val = (j 1).val
    omega

/-- An index of the result array is in point t's block iff each coordinate is in the block's range on its axis. -/
theorem mem_block2 (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v46).slice (win2_2.rect t)).set ↔ _
  rw [View.set_slice_whole, Rect.mem_set_unit]
  exact Iff.rfl

/-- Every row lies in some tile. -/
theorem covered2 (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 20 := N_2
  let t : Fin cfg2.N := ⟨(i 0).val / 5000, by rw [hN]; omega⟩
  obtain ⟨-, -, -, -, e4, e5⟩ := index_maps2 t
  refine ⟨t, flush2_2 t, ?_⟩
  rw [mem_block2]
  intro a
  match a with
  | ⟨0, _⟩ =>
    show win2_2.index t (0 : Fin 2) * 5000 ≤ (i 0).val ∧ (i 0).val < win2_2.index t (0 : Fin 2) * 5000 + 5000
    have ht : t.val = (i 0).val / 5000 := rfl
    omega
  | ⟨1, _⟩ =>
    show win2_2.index t (1 : Fin 2) * 16 ≤ (i 1).val ∧ (i 1).val < win2_2.index t (1 : Fin 2) * 16 + 16
    omega

/-- THE RESULT ARRAY after the region is that function of the operand arrays as the region finds them. -/
theorem result2 (c : Dev nD) : (dat2 V c).arrAt 2 cfg2.N = dense2 (V c main_v45) (V c main_arg4) :=
  (dat2 V c).arrAt_eq_of_cover 2 (dense2 (V c main_v45) (V c main_arg4)) (fun t _ => flushed2 V c t) (covered2)

end Cert.KernelIdeal.Whole

end
-- ==== Proof.SoftmaxArray.lean ====
/-
  The bias-and-log-softmax pass's result array.
  The region runs a sum with a bias row followed by a log-softmax of each row on 20 tiles of 5000 rows: at tile t it reads rows 5000 t … 5000 t + 4999 of its first operand and
  the whole of its second, and writes the same rows of its result. So after the region the result array is ONE function of
  the two operand arrays as the region finds them: row by row, the tile function of the row's tile, read at the row's place
  in the tile. The tiles cover every row, so no entry of the result keeps what it held before.
-/
import proofs.«100217_j16801912062046_1_alg».proof.Proof.Gen.KernelIdeal.Frame
import proofs.«100217_j16801912062046_1_alg».proof.Proof.Tiles
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.Gcn.Tiles
open Idealize.ShloMosaic.Pipeline (Dat)

variable {F : FTy → Type} [FloatOps F]
variable (V : (c : Dev nD) → (b : Ref sig .tc) → Buf (Elt F) ((c : Thread nD τ).loc b))

theorem zero_offsets3 : (![0, 0] : Fin 2 → Nat) = fun _ => 0 := funext fun a => by fin_cases a <;> rfl

/-- A grid point of the region as a tile number. -/
def tileOf3 (t : Fin cfg3.N) : Fin 20 := Fin.cast N_3 t

/-- The printed index maps, decided over the 20 grid points: the first operand and the result move with the point along
    the rows, the second operand stays. -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The first operand's block at point t is tile t of its array. -/
theorem first_block3 (c : Dev nD) (t : Fin cfg3.N) :
    (iblk3 V c 0 t : Vec F S5000x16 .f32) = tile (V c main_v59 : S100000x16.Idx → Elt F .f32) (tileOf3 t) := by
  obtain ⟨e0, e1, -, -, -, -⟩ := index_maps3 t
  funext y
  unfold iblk3
  rw [View.read_apply]
  show V c main_v59 _ = tile (V c main_v59 : S100000x16.Idx → Elt F .f32) (tileOf3 t) y
  unfold tile
  refine congrArg (V c main_v59) (funext fun a => Fin.ext ?_)
  match a with
  | ⟨0, _⟩ =>
    refine Eq.trans ?_ (rowOf_val (tileOf3 t) (y 0)).symm
    have hv : (tileOf3 t).val = t.val := rfl
    show win3_0.index t (0 : Fin 2) * 5000 + 1 * (y 0).val = 5000 * (tileOf3 t).val + (y 0).val
    omega
  | ⟨1, _⟩ =>
    show win3_0.index t (1 : Fin 2) * 16 + 1 * (y 1).val = (y 1).val
    omega

/-- The second operand's block at every point is its whole array. -/
theorem second_block3 (c : Dev nD) (t : Fin cfg3.N) :
    (iblk3 V c 1 t : Vec F S1x16 .f32) = (V c main_v60 : S1x16.Idx → Elt F .f32) := by
  obtain ⟨-, -, e2, e3, -, -⟩ := index_maps3 t
  funext y
  unfold iblk3
  rw [View.read_apply]
  show V c main_v60 _ = V c main_v60 y
  refine congrArg (V c main_v60) (funext fun a => Fin.ext ?_)
  match a with
  | ⟨0, _⟩ =>
    show win3_1.index t (0 : Fin 2) * 1 + 1 * (y 0).val = (y 0).val
    omega
  | ⟨1, _⟩ =>
    show win3_1.index t (1 : Fin 2) * 16 + 1 * (y 1).val = (y 1).val
    omega

/-- What the result array holds after the region, as one function of the operand arrays. -/
def biasLogSoftmax (A : S100000x16.Idx → Elt F .f32) (B : S1x16.Idx → Elt F .f32) : S100000x16.Idx → Elt F .f32 :=
  rowwise (fun (x0 : S5000x16.Idx → Elt F .f32) (x1 : S1x16.Idx → Elt F .f32) => (k3_pay1 x0 x1 : S5000x16.Idx → Elt F .f32)) A B

/-- What point t writes back is block t of that function. -/
theorem flushed3 (c : Dev nD) (t : Fin cfg3.N) :
    (dat3 V c).flushed 2 t = ((cfg3.win 2).blk t).view.read (Elt F) (biasLogSoftmax (V c main_v59) (V c main_v60)) := by
  obtain ⟨-, -, -, -, e4, e5⟩ := index_maps3 t
  show (cfg3.win 2).cut (grid3.coords t) ((dat3 V c).after 2 t) = _
  rw [after3_2]
  unfold out3_2
  rw [View.canon_unit_zero zero_offsets3]
  simp only [View.ld_unit_zero (S := S5000x16) zero_offsets3, View.ld_unit_zero (S := S1x16) zero_offsets3]
  funext j
  show k3_pay1 (iblk3 V c 0 t) (iblk3 V c 1 t) j = biasLogSoftmax (V c main_v59) (V c main_v60) (((cfg3.win 2).blk t).view.emb j)
  refine (congrArg₂ (fun (a : Vec F S5000x16 .f32) (b : Vec F S1x16 .f32) => k3_pay1 a b j) (first_block3 V c t) (second_block3 V c t)).trans ?_
  unfold biasLogSoftmax
  refine (rowwise_at _ _ _ (tileOf3 t) j _ ?_ ?_).symm
  · show win3_2.index t (0 : Fin 2) * 5000 + 1 * (j 0).val = 5000 * t.val + (j 0).val
    rw [e4]; omega
  · show win3_2.index t (1 : Fin 2) * 16 + 1 * (j 1).val = (j 1).val
    omega

/-- An index of the result array is in point t's block iff each coordinate is in the block's range on its axis. -/
theorem mem_block3 (t : Fin cfg3.N) (i : S100000x16.Idx) :
    i ∈ ((cfg3.win 2).blk t).view.set ↔ ∀ a : Fin 2, win3_2.index t a * S5000x16.size a ≤ (i a).val ∧ (i a).val < win3_2.index t a * S5000x16.size a + S5000x16.size a := by
  show i ∈ ((View.whole main_v61).slice (win3_2.rect t)).set ↔ _
  rw [View.set_slice_whole, Rect.mem_set_unit]
  exact Iff.rfl

/-- Every row lies in some tile. -/
theorem covered3 (i : S100000x16.Idx) : ∃ t : Fin cfg3.N, (cfg3.win 2).flush t = true ∧ i ∈ ((cfg3.win 2).blk t).view.set := by
  have hi0 : (i 0).val < 100000 := (i 0).isLt
  have hi1 : (i 1).val < 16 := (i 1).isLt
  have hN : cfg3.N = 20 := N_3
  let t : Fin cfg3.N := ⟨(i 0).val / 5000, by rw [hN]; omega⟩
  obtain ⟨-, -, -, -, e4, e5⟩ := index_maps3 t
  refine ⟨t, flush3_2 t, ?_⟩
  rw [mem_block3]
  intro a
  match a with
  | ⟨0, _⟩ =>
    show win3_2.index t (0 : Fin 2) * 5000 ≤ (i 0).val ∧ (i 0).val < win3_2.index t (0 : Fin 2) * 5000 + 5000
    have ht : t.val = (i 0).val / 5000 := rfl
    omega
  | ⟨1, _⟩ =>
    show win3_2.index t (1 : Fin 2) * 16 ≤ (i 1).val ∧ (i 1).val < win3_2.index t (1 : Fin 2) * 16 + 16
    omega

/-- THE RESULT ARRAY after the region is that function of the operand arrays as the region finds them. -/
theorem result3 (c : Dev nD) : (dat3 V c).arrAt 2 cfg3.N = biasLogSoftmax (V c main_v59) (V c main_v60) :=
  (dat3 V c).arrAt_eq_of_cover 2 (biasLogSoftmax (V c main_v59) (V c main_v60)) (fun t _ => flushed3 V c t) (covered3)

end Cert.KernelIdeal.Whole

end
-- ==== Proof.Layers.lean ====
/-
  The two layers, read on the kernel program's side. From the boundary before the first region to the program's end the
  kernel program alternates its four tiled regions with the same host operations as the reference: a dense projection; the
  aggregation (gather along the sources, weight, scatter-add into the destinations); the bias and the relu; the second dense
  projection; the second aggregation; the bias and the row-wise log-softmax. At each boundary the buffer that carries the
  layer's value holds the reference's own stage of the argument arrays — given, for each region, that its tile-by-tile
  function is the reference's whole-array operation (the four hypotheses below, proved in the modules on the stages).
-/
import proofs.«100217_j16801912062046_1_alg».proof.Proof.GraphNorm
import proofs.«100217_j16801912062046_1_alg».proof.Proof.Dense1Array
import proofs.«100217_j16801912062046_1_alg».proof.Proof.ReluArray
import proofs.«100217_j16801912062046_1_alg».proof.Proof.Dense2Array
import proofs.«100217_j16801912062046_1_alg».proof.Proof.SoftmaxArray

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The bias of the first layer as the row the kernel reads. -/
abbrev biasRow1 (b : (⟨Cert.ReferenceIdeal.S128, .f32⟩ : BufTy).Contents (Elt Ideal)) : S1x128.Idx → Elt Ideal .f32 :=
  shapeCast S1x128 b Facts₀.shapeCasts_S128_S1x128
/-- The bias of the second layer as the row the kernel reads. -/
abbrev biasRow2 (b : (⟨Cert.ReferenceIdeal.S16, .f32⟩ : BufTy).Contents (Elt Ideal)) : S1x16.Idx → Elt Ideal .f32 :=
  shapeCast S1x16 b Facts₀.shapeCasts_S16_S1x16

/-- The four regions' tile-by-tile functions are the reference's whole-array operations. -/
structure Stages : Prop where
  dense1 : ∀ (A : (⟨Cert.ReferenceIdeal.S100000x256, .f32⟩ : BufTy).Contents (Elt Ideal)) (B : (⟨Cert.ReferenceIdeal.S256x128, .f32⟩ : BufTy).Contents (Elt Ideal)),
    Whole.dense1 (F := Ideal) A B = Cert.ReferenceIdeal.Read.val_main_v30 (F := Ideal) A B
  relu : ∀ x0 x1 x2 x3, Whole.biasRelu (F := Ideal) (Cert.ReferenceIdeal.Read.val_main_v43 (F := Ideal) x0 x1 x2) (biasRow1 x3) = Cert.ReferenceIdeal.Read.val_main_v47 (F := Ideal) x0 x1 x2 x3
  dense2 : ∀ x0 x1 x2 x3 x4, Whole.dense2 (F := Ideal) (Cert.ReferenceIdeal.Read.val_main_v47 (F := Ideal) x0 x1 x2 x3) x4 = Cert.ReferenceIdeal.Read.val_main_v48 (F := Ideal) x0 x1 x2 x3 x4
  softmax : ∀ x0 x1 x2 x3 x4 x5, Whole.biasLogSoftmax (F := Ideal) (Cert.ReferenceIdeal.Read.val_main_v61 (F := Ideal) x0 x1 x2 x3 x4) (biasRow2 x5) = Cert.ReferenceIdeal.Read.val_main_v65 (F := Ideal) x0 x1 x2 x3 x4 x5

/-! ## The first region and the first aggregation -/

/-- After the first region: the first dense projection. -/
theorem W4_v30 (hS : Stages) : W4 m ρ c (Proc.devRef .tc main_v30) = Cert.ReferenceIdeal.Read.val_main_v30 (F := Ideal) (arg0 m c) (arg2 m c) := by
  refine (W4_arr m ρ c 2).trans ((result0 (V3 m ρ) c).trans ?_)
  show Whole.dense1 (W3 m ρ c (Proc.devRef .tc main_arg0)) (W3 m ρ c (Proc.devRef .tc main_arg2)) = _
  rw [W3_arg0, W3_arg2]
  exact hS.dense1 _ _

theorem W4_v29 : W4 m ρ c (Proc.devRef .tc main_v29) = Cert.ReferenceIdeal.Read.val_main_v29 (F := Ideal) (arg1 m c) :=
  (W4_of_ne m ρ c main_v29 (by decide)).trans (W3_v29 m ρ c)
theorem W4_v3 : W4 m ρ c (Proc.devRef .tc main_v3) = Cert.ReferenceIdeal.Read.val_main_v3 (F := Ideal) (arg1 m c) :=
  (W4_of_ne m ρ c main_v3 (by decide)).trans (W3_v3 m ρ c)
theorem W4_v6 : W4 m ρ c (Proc.devRef .tc main_v6) = Cert.ReferenceIdeal.Read.val_main_v6 (F := Ideal) (arg1 m c) :=
  (W4_of_ne m ρ c main_v6 (by decide)).trans (W3_v6 m ρ c)
theorem W4_arg3 : W4 m ρ c (Proc.devRef .tc main_arg3) = arg3 m c :=
  (W4_of_ne m ρ c main_arg3 (by decide)).trans (W3_arg3 m ρ c)
theorem W4_arg4 : W4 m ρ c (Proc.devRef .tc main_arg4) = arg4 m c :=
  (W4_of_ne m ρ c main_arg4 (by decide)).trans (W3_arg4 m ρ c)
theorem W4_arg5 : W4 m ρ c (Proc.devRef .tc main_arg5) = arg5 m c :=
  (W4_of_ne m ρ c main_arg5 (by decide)).trans (W3_arg5 m ρ c)

/-- After the stretch that follows: the first aggregation. -/
theorem W5_v43 (hS : Stages) : W5 m ρ c (Proc.devRef .tc main_v43) = Cert.ReferenceIdeal.Read.val_main_v43 (F := Ideal) (arg0 m c) (arg1 m c) (arg2 m c) := by
  show StableHlo.after hostOps1 (W4 m ρ c) (Proc.devRef .tc main_v43) = _
  have h30 := W4_v30 m ρ c hS
  have h29 := W4_v29 m ρ c
  have h3 := W4_v3 m ρ c
  have h6 := W4_v6 m ρ c
  generalize W4 m ρ c = Wv at h30 h29 h3 h6 ⊢
  after_results_simp
  rw [h30, h29, h3, h6]
  rfl

/-- The first layer's bias, as the row the second region reads. -/
theorem W5_v44 : W5 m ρ c (Proc.devRef .tc main_v44) = biasRow1 (arg3 m c) := by
  show StableHlo.after hostOps1 (W4 m ρ c) (Proc.devRef .tc main_v44) = _
  have h3 := W4_arg3 m ρ c
  generalize W4 m ρ c = Wv at h3 ⊢
  after_results_simp
  rw [h3]
  rfl

theorem W5_keeps (b : Ref sig .tc) (hb : b = main_v29 ∨ b = main_v3 ∨ b = main_v6 ∨ b = main_arg4 ∨ b = main_arg5) :
    W5 m ρ c (Proc.devRef .tc b) = W4 m ρ c (Proc.devRef .tc b) := by
  rcases hb with rfl | rfl | rfl | rfl | rfl <;> stretch_keeps hostOps1

/-! ## The second and third regions -/

/-- After the second region: the bias and the relu. -/
theorem W6_v45 (hS : Stages) : W6 m ρ c (Proc.devRef .tc main_v45) = Cert.ReferenceIdeal.Read.val_main_v47 (F := Ideal) (arg0 m c) (arg1 m c) (arg2 m c) (arg3 m c) := by
  refine (W6_arr m ρ c 2).trans ((result1 (V5 m ρ) c).trans ?_)
  show Whole.biasRelu (W5 m ρ c (Proc.devRef .tc main_v43)) (W5 m ρ c (Proc.devRef .tc main_v44)) = _
  rw [W5_v43 m ρ c hS, W5_v44]
  exact hS.relu _ _ _ _

theorem W6_keeps (b : Ref sig .tc) (hb : b = main_v29 ∨ b = main_v3 ∨ b = main_v6 ∨ b = main_arg4 ∨ b = main_arg5) :
    W6 m ρ c (Proc.devRef .tc b) = W4 m ρ c (Proc.devRef .tc b) := by
  refine Eq.trans ?_ (W5_keeps m ρ c b hb)
  rcases hb with rfl | rfl | rfl | rfl | rfl <;> exact W6_of_ne m ρ c _ (by decide)

/-- After the third region: the second dense projection. -/
theorem W7_v46 (hS : Stages) : W7 m ρ c (Proc.devRef .tc main_v46) = Cert.ReferenceIdeal.Read.val_main_v48 (F := Ideal) (arg0 m c) (arg1 m c) (arg2 m c) (arg3 m c) (arg4 m c) := by
  refine (W7_arr m ρ c 2).trans ((result2 (V6 m ρ) c).trans ?_)
  show Whole.dense2 (W6 m ρ c (Proc.devRef .tc main_v45)) (W6 m ρ c (Proc.devRef .tc main_arg4)) = _
  rw [W6_v45 m ρ c hS, W6_keeps m ρ c main_arg4 (Or.inr (Or.inr (Or.inr (Or.inl rfl)))), W4_arg4]
  exact hS.dense2 _ _ _ _ _

theorem W7_keeps (b : Ref sig .tc) (hb : b = main_v29 ∨ b = main_v3 ∨ b = main_v6 ∨ b = main_arg5) :
    W7 m ρ c (Proc.devRef .tc b) = W4 m ρ c (Proc.devRef .tc b) := by
  rcases hb with rfl | rfl | rfl | rfl
  · exact (W7_of_ne m ρ c _ (by decide)).trans (W6_keeps m ρ c _ (Or.inl rfl))
  · exact (W7_of_ne m ρ c _ (by decide)).trans (W6_keeps m ρ c _ (Or.inr (Or.inl rfl)))
  · exact (W7_of_ne m ρ c _ (by decide)).trans (W6_keeps m ρ c _ (Or.inr (Or.inr (Or.inl rfl))))
  · exact (W7_of_ne m ρ c _ (by decide)).trans (W6_keeps m ρ c _ (Or.inr (Or.inr (Or.inr (Or.inr rfl)))))

/-! ## The second aggregation and the last region -/

theorem W8_v59 (hS : Stages) : W8 m ρ c (Proc.devRef .tc main_v59) = Cert.ReferenceIdeal.Read.val_main_v61 (F := Ideal) (arg0 m c) (arg1 m c) (arg2 m c) (arg3 m c) (arg4 m c) := by
  show StableHlo.after hostOps3 (W7 m ρ c) (Proc.devRef .tc main_v59) = _
  have h46 := W7_v46 m ρ c hS
  have h29 := (W7_keeps m ρ c main_v29 (Or.inl rfl)).trans (W4_v29 m ρ c)
  have h3 := (W7_keeps m ρ c main_v3 (Or.inr (Or.inl rfl))).trans (W4_v3 m ρ c)
  have h6 := (W7_keeps m ρ c main_v6 (Or.inr (Or.inr (Or.inl rfl)))).trans (W4_v6 m ρ c)
  generalize W7 m ρ c = Wv at h46 h29 h3 h6 ⊢
  after_results_simp
  rw [h46, h29, h3, h6]
  rfl

theorem W8_v60 : W8 m ρ c (Proc.devRef .tc main_v60) = biasRow2 (arg5 m c) := by
  show StableHlo.after hostOps3 (W7 m ρ c) (Proc.devRef .tc main_v60) = _
  have h5 := (W7_keeps m ρ c main_arg5 (Or.inr (Or.inr (Or.inr rfl)))).trans (W4_arg5 m ρ c)
  generalize W7 m ρ c = Wv at h5 ⊢
  after_results_simp
  rw [h5]
  rfl

/-- THE KERNEL PROGRAM'S RESULT: at the last boundary its result buffer holds the reference's log-softmax stage of the six
    argument arrays. -/
theorem kernel_result (hS : Stages) : W9 m ρ c (Proc.devRef .tc main_v61) = Cert.ReferenceIdeal.Read.val_main_v65 (F := Ideal) (arg0 m c) (arg1 m c) (arg2 m c) (arg3 m c) (arg4 m c) (arg5 m c) := by
  refine (W9_arr m ρ c 2).trans ((result3 (V8 m ρ) c).trans ?_)
  show Whole.biasLogSoftmax (W8 m ρ c (Proc.devRef .tc main_v59)) (W8 m ρ c (Proc.devRef .tc main_v60)) = _
  rw [W8_v59 m ρ c hS, W8_v60]
  exact hS.softmax _ _ _ _ _ _

end Cert.KernelIdeal.Whole

end
-- ==== Proof.RefValue.lean ====
/-
  The reference program's run, read. The reference is 98 host operations in a line. Every weakly fair execution ends with
  each buffer at the fold of the operations' results over the launch contents. Cut at five places — after the nodes'
  normalisation factors, after the edges' weights, after the first aggregation, after the second dense projection, after
  the second aggregation — the fold is read one stretch at a time: each buffer a later stretch reads holds the stage of the
  argument arrays that the line computes there, and the last stretch, the bias and the row-wise log-softmax, leaves the
  result at its stage.
-/
import proofs.«100217_j16801912062046_1_alg».proof.Proof.RefRead
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.StableHlo Cert.ReferenceIdeal.Value Cert.ReferenceIdeal.Read

variable {F : FTy → Type} [FloatOps F]

/-- Running a line of operations that is two lines one after the other is running the first, then the second. -/
theorem after_append (a b : List (HloOp τ sig (Elt F))) (V : Valuation τ sig (Elt F)) :
    after (a ++ b) V = after b (after a V) := by
  induction a generalizing V with
  | nil => rfl
  | cons op a ih => exact ih _

/-- A line cut after its first k operations. -/
theorem after_cut (k : Nat) (l : List (HloOp τ sig (Elt F))) (V : Valuation τ sig (Elt F)) :
    after l V = after (l.drop k) (after (l.take k) V) := by
  rw [← after_append, List.take_append_drop]

variable (m : (ℓ : Loc nD τ sig) → Buf (Elt F) ℓ) (ρ : Dev nD → PrngReg) (c : Dev nD)

/-- The buffers' contents after the nodes' factors (21 operations); -/
def cut1 : Valuation τ sig (Elt F) := after ((ops (F := F)).take 21) (launchContents m c)
/-- after the edges' weights (19 more); -/
def cut2 : Valuation τ sig (Elt F) := after (((ops (F := F)).drop 21).take 19) (cut1 m c)
/-- after the first dense projection and aggregation (17 more); -/
def cut3 : Valuation τ sig (Elt F) := after (((ops (F := F)).drop 40).take 17) (cut2 m c)
/-- after the bias, the relu and the second dense projection (7 more); -/
def cut4 : Valuation τ sig (Elt F) := after (((ops (F := F)).drop 57).take 7) (cut3 m c)
/-- after the second aggregation (16 more). -/
def cut5 : Valuation τ sig (Elt F) := after (((ops (F := F)).drop 64).take 16) (cut4 m c)

/-- after the second layer's bias (3 more); -/
def cut6 : Valuation τ sig (Elt F) := after (((ops (F := F)).drop 80).take 3) (cut5 m c)
/-- after the rows' maxima are subtracted (8 more). -/
def cut7 : Valuation τ sig (Elt F) := after (((ops (F := F)).drop 83).take 8) (cut6 m c)

/-- The whole line is the last 7 operations run from the seventh cut. -/
theorem fold_cut : after (ops (F := F)) (launchContents m c) = after ((ops (F := F)).drop 91) (cut7 m c) := by
  unfold cut7 cut6 cut5 cut4 cut3 cut2 cut1
  simp only [ops, List.take_succ_cons, List.take_zero, List.drop_succ_cons, List.drop_zero, after_cons, after_nil]

/-! ## The stretches, read -/

theorem cut1_v14 : cut1 m c (Proc.devRef .tc main_v14) = val_main_v14 (F := F) (m ((c.tc : Thread nD τ).loc main_arg1)) := by
  unfold cut1
  simp only [ops, List.take_succ_cons, List.take_zero]
  after_results_simp
  rfl
theorem cut1_v3 : cut1 m c (Proc.devRef .tc main_v3) = val_main_v3 (F := F) (m ((c.tc : Thread nD τ).loc main_arg1)) := by
  unfold cut1
  simp only [ops, List.take_succ_cons, List.take_zero]
  after_results_simp
  rfl
theorem cut1_v6 : cut1 m c (Proc.devRef .tc main_v6) = val_main_v6 (F := F) (m ((c.tc : Thread nD τ).loc main_arg1)) := by
  unfold cut1
  simp only [ops, List.take_succ_cons, List.take_zero]
  after_results_simp
  rfl
theorem cut1_arg (b : Ref sig .tc) (hb : b = main_arg0 ∨ b = main_arg2 ∨ b = main_arg3 ∨ b = main_arg4 ∨ b = main_arg5) :
    cut1 m c (Proc.devRef .tc b) = m ((c.tc : Thread nD τ).loc b) := by
  unfold cut1
  simp only [ops, List.take_succ_cons, List.take_zero]
  rcases hb with rfl | rfl | rfl | rfl | rfl <;> (after_results_simp <;> rfl)

/-- The stretch up to cut 2 writes none of these buffers. -/
theorem cut2_keeps (b : Ref sig .tc) (hb : b = main_v3 ∨ b = main_v6 ∨ b = main_arg0 ∨ b = main_arg2 ∨ b = main_arg3 ∨ b = main_arg4 ∨ b = main_arg5) :
    cut2 m c (Proc.devRef .tc b) = cut1 m c (Proc.devRef .tc b) := by
  unfold cut2
  generalize cut1 m c = Wv
  simp only [ops, List.drop_succ_cons, List.drop_zero, List.take_succ_cons, List.take_zero]
  rcases hb with rfl | rfl | rfl | rfl | rfl | rfl | rfl <;> after_results_simp

/-- Each edge's weight: the product of its two end points' factors. -/
theorem cut2_v29 : cut2 m c (Proc.devRef .tc main_v29) = val_main_v29 (F := F) (m ((c.tc : Thread nD τ).loc main_arg1)) := by
  unfold cut2
  have h3 := cut1_v3 m c
  have h6 := cut1_v6 m c
  have h14 := cut1_v14 m c
  generalize cut1 m c = Wv at h3 h6 h14 ⊢
  simp only [ops, List.drop_succ_cons, List.drop_zero, List.take_succ_cons, List.take_zero]
  after_results_simp
  rw [h3, h6, h14]
  rfl

/-- The stretch up to cut 3 writes none of these buffers. -/
theorem cut3_keeps (b : Ref sig .tc) (hb : b = main_v29 ∨ b = main_v3 ∨ b = main_v6 ∨ b = main_arg3 ∨ b = main_arg4 ∨ b = main_arg5) :
    cut3 m c (Proc.devRef .tc b) = cut2 m c (Proc.devRef .tc b) := by
  unfold cut3
  generalize cut2 m c = Wv
  simp only [ops, List.drop_succ_cons, List.drop_zero, List.take_succ_cons, List.take_zero]
  rcases hb with rfl | rfl | rfl | rfl | rfl | rfl <;> after_results_simp

/-- The first dense projection, gathered along the sources, weighted, and summed into the destinations. -/
theorem cut3_v43 : cut3 m c (Proc.devRef .tc main_v43) = val_main_v43 (F := F) (m ((c.tc : Thread nD τ).loc main_arg0)) (m ((c.tc : Thread nD τ).loc main_arg1)) (m ((c.tc : Thread nD τ).loc main_arg2)) := by
  unfold cut3
  have h0 := (cut2_keeps m c main_arg0 (Or.inr (Or.inr (Or.inl rfl)))).trans (cut1_arg m c main_arg0 (Or.inl rfl))
  have h2 := (cut2_keeps m c main_arg2 (Or.inr (Or.inr (Or.inr (Or.inl rfl))))).trans (cut1_arg m c main_arg2 (Or.inr (Or.inl rfl)))
  have h3 := (cut2_keeps m c main_v3 (Or.inl rfl)).trans (cut1_v3 m c)
  have h6 := (cut2_keeps m c main_v6 (Or.inr (Or.inl rfl))).trans (cut1_v6 m c)
  have h29 := cut2_v29 m c
  generalize cut2 m c = Wv at h0 h2 h3 h6 h29 ⊢
  simp only [ops, List.drop_succ_cons, List.drop_zero, List.take_succ_cons, List.take_zero]
  after_results_simp
  rw [h0, h2, h3, h6, h29]
  rfl

/-- The stretch up to cut 4 writes none of these buffers. -/
theorem cut4_keeps (b : Ref sig .tc) (hb : b = main_v29 ∨ b = main_v3 ∨ b = main_v6 ∨ b = main_arg5) :
    cut4 m c (Proc.devRef .tc b) = cut3 m c (Proc.devRef .tc b) := by
  unfold cut4
  generalize cut3 m c = Wv
  simp only [ops, List.drop_succ_cons, List.drop_zero, List.take_succ_cons, List.take_zero]
  rcases hb with rfl | rfl | rfl | rfl <;> after_results_simp

/-- The bias, the relu, the second dense projection. -/
theorem cut4_v48 : cut4 m c (Proc.devRef .tc main_v48) = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold cut4
  have h3 := (cut3_keeps m c main_arg3 (Or.inr (Or.inr (Or.inr (Or.inl rfl))))).trans ((cut2_keeps m c main_arg3 (Or.inr (Or.inr (Or.inr (Or.inr (Or.inl rfl)))))).trans (cut1_arg m c main_arg3 (Or.inr (Or.inr (Or.inl rfl)))))
  have h4 := (cut3_keeps m c main_arg4 (Or.inr (Or.inr (Or.inr (Or.inr (Or.inl rfl)))))).trans ((cut2_keeps m c main_arg4 (Or.inr (Or.inr (Or.inr (Or.inr (Or.inr (Or.inl rfl))))))).trans (cut1_arg m c main_arg4 (Or.inr (Or.inr (Or.inr (Or.inl rfl))))))
  have h43 := cut3_v43 m c
  generalize cut3 m c = Wv at h3 h4 h43 ⊢
  simp only [ops, List.drop_succ_cons, List.drop_zero, List.take_succ_cons, List.take_zero]
  after_results_simp
  rw [h3, h4, h43]
  rfl

/-- The stretch up to cut 5 writes none of these buffers. -/
theorem cut5_keeps (b : Ref sig .tc) (hb : b = main_arg5) :
    cut5 m c (Proc.devRef .tc b) = cut4 m c (Proc.devRef .tc b) := by
  unfold cut5
  generalize cut4 m c = Wv
  simp only [ops, List.drop_succ_cons, List.drop_zero, List.take_succ_cons, List.take_zero]
  rcases hb with rfl <;> after_results_simp

/-- The second aggregation. -/
theorem cut5_v61 : cut5 m c (Proc.devRef .tc main_v61) = val_main_v61 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold cut5
  have h3 := (cut4_keeps m c main_v3 (Or.inr (Or.inl rfl))).trans ((cut3_keeps m c main_v3 (Or.inr (Or.inl rfl))).trans ((cut2_keeps m c main_v3 (Or.inl rfl)).trans (cut1_v3 m c)))
  have h6 := (cut4_keeps m c main_v6 (Or.inr (Or.inr (Or.inl rfl)))).trans ((cut3_keeps m c main_v6 (Or.inr (Or.inr (Or.inl rfl)))).trans ((cut2_keeps m c main_v6 (Or.inr (Or.inl rfl))).trans (cut1_v6 m c)))
  have h29 := (cut4_keeps m c main_v29 (Or.inl rfl)).trans ((cut3_keeps m c main_v29 (Or.inl rfl)).trans (cut2_v29 m c))
  have h48 := cut4_v48 m c
  generalize cut4 m c = Wv at h3 h6 h29 h48 ⊢
  simp only [ops, List.drop_succ_cons, List.drop_zero, List.take_succ_cons, List.take_zero]
  after_results_simp
  rw [h3, h6, h29, h48]
  rfl

/-- The second layer's value: the second aggregation plus the bias. -/
theorem cut6_v64 : cut6 m c (Proc.devRef .tc main_v64) = val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold cut6
  have h5 := (cut5_keeps m c main_arg5 (rfl)).trans ((cut4_keeps m c main_arg5 (Or.inr (Or.inr (Or.inr (rfl))))).trans ((cut3_keeps m c main_arg5 (Or.inr (Or.inr (Or.inr (Or.inr (Or.inr (rfl))))))).trans ((cut2_keeps m c main_arg5 (Or.inr (Or.inr (Or.inr (Or.inr (Or.inr (Or.inr (rfl)))))))).trans (cut1_arg m c main_arg5 (Or.inr (Or.inr (Or.inr (Or.inr (rfl)))))))))
  have h61 := cut5_v61 m c
  generalize cut5 m c = Wv at h5 h61 ⊢
  simp only [ops, List.drop_succ_cons, List.drop_zero, List.take_succ_cons, List.take_zero]
  after_results_simp
  rw [h5, h61]
  rfl

/-- Contents carried to a buffer's own type and back are the contents. -/
theorem ofBuf_toBuf {T : BufTy} (x : TRef sig T) (v : T.Contents (Elt F)) : x.ofBuf (x.toBuf v) = v := by
  obtain ⟨r, h, a, b⟩ := x
  subst h
  rfl
/-- The second layer's value read at its own type is itself (stated of any contents, so that nothing is opened). -/
theorem ofBuf_v64 (v : (⟨S100000x16, .f32⟩ : BufTy).Contents (Elt F)) : (TRef.of (T := ⟨S100000x16, .f32⟩) main_v64).ofBuf v = v := rfl
/-- The shifted rows written at their buffer's type are themselves. -/
theorem toBuf_call2_v5 (w : (⟨S100000x16, .f32⟩ : BufTy).Contents (Elt F)) : (TRef.of (T := ⟨S100000x16, .f32⟩) main_call2_v5).toBuf w = w := rfl

/-- Each row with its maximum subtracted. The row maximum is a fold over the whole array: the two sides are brought to
    the same spelling before they are compared, so that the fold is never opened. -/
theorem cut7_v5 : cut7 m c (Proc.devRef .tc main_call2_v5) = val_main_call2_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold cut7
  have h64 := cut6_v64 m c
  generalize cut6 m c = Wv at h64 ⊢
  simp only [ops, List.drop_succ_cons, List.drop_zero, List.take_succ_cons, List.take_zero]
  after_results_simp
  rw [h64]
  simp only [ofBuf_toBuf, ofBuf_v64, toBuf_call2_v5]
  unfold val_main_call2_v5 val_main_call2_v4 val_main_call2_v3 val_main_call2_v2 val_main_call2_v1 val_main_call2_cst_0
    val_main_call2_v0 val_main_call2_cst
  rfl

/-- THE RESULT: from each shifted row, the logarithm of the sum of its exponentials subtracted. -/
theorem result_fold : after (ops (F := F)) (launchContents m c) (Proc.devRef .tc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [fold_cut]
  have h5 := cut7_v5 m c
  generalize cut7 m c = Wv at h5 ⊢
  simp only [ops, List.drop_succ_cons, List.drop_zero]
  after_results_simp
  rw [h5]
  rfl

set_option maxHeartbeats 40000000 in
/-- An argument array is written by no operation of the line. -/
theorem arg_fold (b : Ref sig .tc) (hb : b = main_arg0 ∨ b = main_arg1 ∨ b = main_arg2 ∨ b = main_arg3 ∨ b = main_arg4 ∨ b = main_arg5) :
    after (ops (F := F)) (launchContents m c) (Proc.devRef .tc b) = m ((c.tc : Thread nD τ).loc b) := by
  rcases hb with rfl | rfl | rfl | rfl | rfl | rfl <;> (after_results_simp <;> rfl)

/-- THE RUN: every weakly fair execution of the reference terminates, nothing faulting, with its result array at the
    log-softmax stage of the launch arguments, and the arguments unchanged. -/
theorem run : θ_run defs (onTc (τ := τ) (main (F := F))) ⟨m, fun _ => 0, ρ⟩ fun r => ∀ c : Dev nD,
      r.2.mem ((c.tc : Thread nD τ).loc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result_fold m c),
      (h c main_arg0).trans (arg_fold m c main_arg0 (Or.inl rfl)),
      (h c main_arg1).trans (arg_fold m c main_arg1 (Or.inr (Or.inl rfl))),
      (h c main_arg2).trans (arg_fold m c main_arg2 (Or.inr (Or.inr (Or.inl rfl)))),
      (h c main_arg3).trans (arg_fold m c main_arg3 (Or.inr (Or.inr (Or.inr (Or.inl rfl))))),
      (h c main_arg4).trans (arg_fold m c main_arg4 (Or.inr (Or.inr (Or.inr (Or.inr (Or.inl rfl)))))),
      (h c main_arg5).trans (arg_fold m c main_arg5 (Or.inr (Or.inr (Or.inr (Or.inr (Or.inr rfl))))))⟩)
    (run_seq scopedRefs_eq scopedSems_eq defs main (fun _ => ops) main_eq (fun _ => ops_sub) m ρ)

end Cert.ReferenceIdeal.RefValue

end
-- ==== Proof.LinearRows.lean ====
/-
  The two dense projections and the bias-plus-rectifier of a two-layer graph-convolution network, read at one
  element, on both sides. Every float is an extended real here and a change of float format is the identity, so a
  projection's element is the plain sum over the contracted axis of the products of the operands' elements, and the
  rectifier's element is the maximum of (input plus bias) and zero.
-/
import proofs.«100217_j16801912062046_1_alg».proof.Proof.Gen.KernelIdeal.Skeleton
import proofs.«100217_j16801912062046_1_alg».proof.Proof.RefRead
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn.LinearRows

open Idealize.ShloMosaic Idealize.ShloMosaic.ValueIdx

section Kernel

open Cert.KernelIdeal Cert.KernelIdeal.Gen

variable [Cert.KernelIdeal.Facts]

/-- Operand coordinates of the `S5000x256` by `S256x128` product at an output index `i` and a contraction index `c`: the left
    operand's row is `i`'s row … -/
theorem lhsK1_0 (i : S5000x128.Idx) (c : dot_S5000x256_S256x128_S5000x128_1_0_0_1_n_n.contr.Idx) :
    (dot_S5000x256_S256x128_S5000x128_1_0_0_1_n_n.lhsIdx i c 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- … its column is the contraction coordinate … -/
theorem lhsK1_1 (i : S5000x128.Idx) (c : dot_S5000x256_S256x128_S5000x128_1_0_0_1_n_n.contr.Idx) :
    (dot_S5000x256_S256x128_S5000x128_1_0_0_1_n_n.lhsIdx i c 1).val = (c ⟨0, by decide⟩).val :=
  dot_S5000x256_S256x128_S5000x128_1_0_0_1_n_n.lhsIdx_val_of_single rfl i c
/-- … the right operand's row is the contraction coordinate … -/
theorem rhsK1_0 (i : S5000x128.Idx) (c : dot_S5000x256_S256x128_S5000x128_1_0_0_1_n_n.contr.Idx) :
    (dot_S5000x256_S256x128_S5000x128_1_0_0_1_n_n.rhsIdx i c 0).val = (c ⟨0, by decide⟩).val :=
  dot_S5000x256_S256x128_S5000x128_1_0_0_1_n_n.rhsIdx_val_of_single rfl i c
/-- … and its column is `i`'s column. -/
theorem rhsK1_1 (i : S5000x128.Idx) (c : dot_S5000x256_S256x128_S5000x128_1_0_0_1_n_n.contr.Idx) :
    (dot_S5000x256_S256x128_S5000x128_1_0_0_1_n_n.rhsIdx i c 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The first projection on the kernel's side: the product of the `[5000, 256]` block of features with the
    `[256, 128]` weight, accumulated into zero, is at `(p, q)` the sum over `k` of `x0 (p, k) * x1 (k, q)`; the narrowing of
    both operands to a shorter float format is the identity on extended reals. -/
theorem ker_linear1_apply (x0 : Vec Ideal Cert.KernelIdeal.S5000x256 .f32) (x1 : Vec Ideal Cert.KernelIdeal.S256x128 .f32)
    (p : Fin 5000) (q : Fin 128) :
    Cert.KernelIdeal.Gen.k0_pay1 (F := Ideal) x0 x1 (ValueIdx.ix2 p q)
      = ∑ k : Fin 256, x0 (ValueIdx.ix2 p k) * x1 (ValueIdx.ix2 k q) := by
  unfold k0_pay1
  refine (Ideal.matmul_constant_zero_apply dot_S5000x256_S256x128_S5000x128_1_0_0_1_n_n none _ _ (ix2 p q)).trans ?_
  refine (Equiv.sum_comp (contrEquiv1 dot_S5000x256_S256x128_S5000x128_1_0_0_1_n_n 256 rfl rfl).symm _).symm.trans ?_
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhsK1_0 _ _
    | ⟨1, _⟩ => exact (lhsK1_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhsK1_0 _ _).trans hk
    | ⟨1, _⟩ => exact rhsK1_1 _ _)
  rw [el, er]
  rfl

/-- The bias and the rectifier on the kernel's side: at `(p, q)` the maximum of `x0 (p, q)` plus the bias row's entry
    `x1 (0, q)` and zero. The two casts to the same shape are the identity, the `[1, 128]` row is broadcast along the
    rows, and the splat of the word `0x00000000` is the extended real `0`. -/
theorem ker_relu_apply (x0 : Vec Ideal Cert.KernelIdeal.S5000x128 .f32) (x1 : Vec Ideal Cert.KernelIdeal.S1x128 .f32)
    (p : Fin 5000) (q : Fin 128) :
    Cert.KernelIdeal.Gen.k1_pay1 (F := Ideal) x0 x1 (ValueIdx.ix2 p q)
      = max (x0 (ValueIdx.ix2 p q) + x1 (ValueIdx.ix2 (0 : Fin 1) q)) 0 := by
  have hb : broadcastTo S5000x128 x1 broadcasts_S1x128_S5000x128 (ix2 p q) = x1 (ix2 (0 : Fin 1) q) :=
    broadcastTo_apply x1 broadcasts_S1x128_S5000x128 (ix2 p q) (ix2 (0 : Fin 1) q) (fun a => match a with
      | ⟨0, _⟩ => by show (0 : Nat) = if (1 : Nat) = 1 then 0 else _; rw [if_pos rfl]
      | ⟨1, _⟩ => by show q.val = if (128 : Nat) = 1 then 0 else q.val; rw [if_neg (by decide)])
  unfold k1_pay1
  show max (shapeCast S5000x128 x0 shapeCasts_S5000x128_S5000x128 (ix2 p q)
      + broadcastTo S5000x128 (shapeCast S1x128 x1 shapeCasts_S1x128_S1x128) broadcasts_S1x128_S5000x128 (ix2 p q))
    (Ideal.ofBits .f32 0x00000000#32) = _
  rw [shapeCast_self x0, shapeCast_self x1, hb, Ideal.ofBits_zero_f32]

end Kernel

section Reference

open Cert.ReferenceIdeal

variable [Cert.ReferenceIdeal.Facts]

/-- The first projection on the reference's side: the contraction of the `[100000, 256]` features with the `[256, 128]`
    weight is at `(r, q)` the sum over `k` of `x0 (r, k) * x2 (k, q)`. -/
theorem ref_linear1_apply (x0 : (⟨Cert.ReferenceIdeal.S100000x256, .f32⟩ : BufTy).Contents (Elt Ideal))
    (x2 : (⟨Cert.ReferenceIdeal.S256x128, .f32⟩ : BufTy).Contents (Elt Ideal)) (r : Fin 100000) (q : Fin 128) :
    Cert.ReferenceIdeal.Read.val_main_v30 (F := Ideal) x0 x2 (ValueIdx.ix2 r q)
      = ∑ k : Fin 256, x0 (ValueIdx.ix2 r k) * x2 (ValueIdx.ix2 k q) := by
  rw [Read.val_main_v30_apply]
  refine Finset.sum_congr rfl fun k _ => ?_
  have el : Read.lidx_main_v30 (ix2 r q) k = ix2 r k :=
    funext fun a => Fin.ext (by match a with | ⟨0, _⟩ => rfl | ⟨1, _⟩ => rfl)
  have er : Read.ridx_main_v30 (ix2 r q) k = ix2 k q :=
    funext fun a => Fin.ext (by match a with | ⟨0, _⟩ => rfl | ⟨1, _⟩ => rfl)
  rw [el, er]

/-- The bias and the rectifier on the reference's side: at `(r, q)` the maximum of the aggregated value there plus the
    bias entry `x3 q` and zero. The bias `[128]` is broadcast to `[1, 128]` and then along the rows, and the rectifier's
    zero is the splat of the word `0x00000000`, the extended real `0`. The aggregated value stays an opaque function. -/
theorem ref_relu_apply (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal)) (r : Fin 100000) (q : Fin 128) :
    Cert.ReferenceIdeal.Read.val_main_v47 (F := Ideal) x0 x1 x2 x3 (ValueIdx.ix2 r q)
      = max (Cert.ReferenceIdeal.Read.val_main_v43 (F := Ideal) x0 x1 x2 (ValueIdx.ix2 r q) + x3 (ValueIdx.ix1 q)) 0 := by
  rw [Read.val_main_v47_apply, Read.val_main_v46_apply, Read.val_main_v45_apply, Read.val_main_v44_apply,
    Read.val_main_call1_v0_apply, Read.val_main_call1_cst_apply]
  generalize Read.val_main_v43 (F := Ideal) x0 x1 x2 (ix2 r q) = y
  have e : Read.idx_main_v44 (Read.idx_main_v45 (ix2 r q)) = ix1 q :=
    funext fun a => Fin.ext (by match a with | ⟨0, _⟩ => rfl)
  rw [e]
  show max (y + x3 (ix1 q)) (Ideal.ofBits .f32 0x00000000#32) = _
  rw [Ideal.ofBits_zero_f32]

/-- The second projection on the reference's side: the contraction of the rectified `[100000, 128]` hidden features
    with the `[128, 16]` weight is at `(r, q)` the sum over `k` of the hidden feature at `(r, k)` times `x4 (k, q)`. -/
theorem ref_linear2_apply (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal))
    (x4 : (⟨Cert.ReferenceIdeal.S128x16, .f32⟩ : BufTy).Contents (Elt Ideal)) (r : Fin 100000) (q : Fin 16) :
    Cert.ReferenceIdeal.Read.val_main_v48 (F := Ideal) x0 x1 x2 x3 x4 (ValueIdx.ix2 r q)
      = ∑ k : Fin 128, Cert.ReferenceIdeal.Read.val_main_v47 (F := Ideal) x0 x1 x2 x3 (ValueIdx.ix2 r k) * x4 (ValueIdx.ix2 k q) := by
  rw [Read.val_main_v48_apply]
  generalize Read.val_main_v47 (F := Ideal) x0 x1 x2 x3 = y
  refine Finset.sum_congr rfl fun k _ => ?_
  have el : Read.lidx_main_v48 (ix2 r q) k = ix2 r k :=
    funext fun a => Fin.ext (by match a with | ⟨0, _⟩ => rfl | ⟨1, _⟩ => rfl)
  have er : Read.ridx_main_v48 (ix2 r q) k = ix2 k q :=
    funext fun a => Fin.ext (by match a with | ⟨0, _⟩ => rfl | ⟨1, _⟩ => rfl)
  rw [el, er]

end Reference

section Kernel2

open Cert.KernelIdeal Cert.KernelIdeal.Gen

variable [Cert.KernelIdeal.Facts]

/-- Operand coordinates of the `S5000x128` by `S128x16` product at an output index `i` and a contraction index `c`: the left
    operand's row is `i`'s row … -/
theorem lhsK2_0 (i : S5000x16.Idx) (c : dot_S5000x128_S128x16_S5000x16_1_0_0_1_n_n.contr.Idx) :
    (dot_S5000x128_S128x16_S5000x16_1_0_0_1_n_n.lhsIdx i c 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
/-- … its column is the contraction coordinate … -/
theorem lhsK2_1 (i : S5000x16.Idx) (c : dot_S5000x128_S128x16_S5000x16_1_0_0_1_n_n.contr.Idx) :
    (dot_S5000x128_S128x16_S5000x16_1_0_0_1_n_n.lhsIdx i c 1).val = (c ⟨0, by decide⟩).val :=
  dot_S5000x128_S128x16_S5000x16_1_0_0_1_n_n.lhsIdx_val_of_single rfl i c
/-- … the right operand's row is the contraction coordinate … -/
theorem rhsK2_0 (i : S5000x16.Idx) (c : dot_S5000x128_S128x16_S5000x16_1_0_0_1_n_n.contr.Idx) :
    (dot_S5000x128_S128x16_S5000x16_1_0_0_1_n_n.rhsIdx i c 0).val = (c ⟨0, by decide⟩).val :=
  dot_S5000x128_S128x16_S5000x16_1_0_0_1_n_n.rhsIdx_val_of_single rfl i c
/-- … and its column is `i`'s column. -/
theorem rhsK2_1 (i : S5000x16.Idx) (c : dot_S5000x128_S128x16_S5000x16_1_0_0_1_n_n.contr.Idx) :
    (dot_S5000x128_S128x16_S5000x16_1_0_0_1_n_n.rhsIdx i c 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- The second projection on the kernel's side: the product of the `[5000, 128]` block of hidden features with the
    `[128, 16]` weight, accumulated into zero, is at `(p, q)` the sum over `k` of `x0 (p, k) * x1 (k, q)`; the cast of the
    left operand to its own shape and the narrowing of both operands are the identity. -/
theorem ker_linear2_apply (x0 : Vec Ideal Cert.KernelIdeal.S5000x128 .f32) (x1 : Vec Ideal Cert.KernelIdeal.S128x16 .f32)
    (p : Fin 5000) (q : Fin 16) :
    Cert.KernelIdeal.Gen.k2_pay1 (F := Ideal) x0 x1 (ValueIdx.ix2 p q)
      = ∑ k : Fin 128, x0 (ValueIdx.ix2 p k) * x1 (ValueIdx.ix2 k q) := by
  unfold k2_pay1
  refine (Ideal.matmul_constant_zero_apply dot_S5000x128_S128x16_S5000x16_1_0_0_1_n_n none _ _ (ix2 p q)).trans ?_
  refine (Equiv.sum_comp (contrEquiv1 dot_S5000x128_S128x16_S5000x16_1_0_0_1_n_n 128 rfl rfl).symm _).symm.trans ?_
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx (ix2 p q) ((contrEquiv1 dot_S5000x128_S128x16_S5000x16_1_0_0_1_n_n 128 rfl rfl).symm k) = ix2 p k := funext fun a => Fin.ext (by
    match a with
    | ⟨0, _⟩ => exact lhsK2_0 _ _
    | ⟨1, _⟩ => exact (lhsK2_1 _ _).trans hk)
  have er : dot_S5000x128_S128x16_S5000x16_1_0_0_1_n_n.rhsIdx (ix2 p q) ((contrEquiv1 dot_S5000x128_S128x16_S5000x16_1_0_0_1_n_n 128 rfl rfl).symm k) = ix2 k q := funext fun a => Fin.ext (by
    match a with
    | ⟨0, _⟩ => exact (rhsK2_0 _ _).trans hk
    | ⟨1, _⟩ => exact rhsK2_1 _ _)
  rw [el, er]
  show shapeCast S5000x128 x0 shapeCasts_S5000x128_S5000x128 (ix2 p k) * x1 (ix2 k q) = _
  rw [shapeCast_self x0]

end Kernel2

end Cert.Gcn.LinearRows

end
-- ==== Proof.StageLinear.lean ====
/-
  The three dense stages of the two-layer graph-convolution network, kernel against reference, as whole arrays.
  The kernel computes each stage tile by tile over 20 tiles of 5000 rows; the whole-array function this gives is, row by
  row, the tile function at the row's tile and place. Read at one element both sides are the same expression: a
  projection is the sum over the contracted axis of the products of the operands' elements, and the rectifier is the
  maximum of (input plus bias) and zero. A tile read at a row's place is the array read at the row, so the two agree.
-/
import proofs.«100217_j16801912062046_1_alg».proof.Proof.LinearRows
import proofs.«100217_j16801912062046_1_alg».proof.Proof.Dense1Array
import proofs.«100217_j16801912062046_1_alg».proof.Proof.ReluArray
import proofs.«100217_j16801912062046_1_alg».proof.Proof.Dense2Array

noncomputable section

open scoped BigOperators

namespace Cert.Gcn.Stages

open Idealize.ShloMosaic Idealize.ShloMosaic.ValueIdx Cert.Gcn.Tiles Cert.Gcn.LinearRows

/-- The first projection: the kernel's tile-by-tile product of the features with the first weight is, as a whole
    array, the reference's contraction of the same two arrays: both are at `(r, q)` the sum over `k` of
    `A (r, k) * B (k, q)`. -/
theorem dense1_eq (A : (⟨Cert.ReferenceIdeal.S100000x256, .f32⟩ : BufTy).Contents (Elt Ideal))
    (B : (⟨Cert.ReferenceIdeal.S256x128, .f32⟩ : BufTy).Contents (Elt Ideal)) :
    Cert.KernelIdeal.Whole.dense1 (F := Ideal) A B = Cert.ReferenceIdeal.Read.val_main_v30 (F := Ideal) A B := by
  funext i
  obtain ⟨r, q, rfl⟩ : ∃ (r : Fin 100000) (q : Fin 128), i = ix2 r q := ⟨i 0, i 1, eq_ix2 i⟩
  rw [ref_linear1_apply]
  unfold Cert.KernelIdeal.Whole.dense1
  refine (rowwise_row _ A B r q).trans ?_
  refine (ker_linear1_apply (tile A (tileIx r.val)) B (inTile r.val) q).trans ?_
  refine Finset.sum_congr rfl fun k _ => ?_
  rw [tile_apply]

/-- The bias and the rectifier: the kernel's tile-by-tile stage, applied to the aggregated array and to the bias
    reshaped from `[128]` to a `[1, 128]` row, is as a whole array the reference's rectified stage: both are at `(r, q)`
    the maximum of the aggregated value there plus `x3 q` and zero. The reshaped bias row read at `(0, q)` is `x3 q`: the two
    indices have the same position in row-major order. The aggregated array stays an opaque function. -/
theorem relu_eq (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal)) :
    Cert.KernelIdeal.Whole.biasRelu (F := Ideal) (Cert.ReferenceIdeal.Read.val_main_v43 (F := Ideal) x0 x1 x2)
        (shapeCast Cert.KernelIdeal.S1x128 x3 Cert.KernelIdeal.Facts₀.shapeCasts_S128_S1x128)
      = Cert.ReferenceIdeal.Read.val_main_v47 (F := Ideal) x0 x1 x2 x3 := by
  funext i
  obtain ⟨r, q, rfl⟩ : ∃ (r : Fin 100000) (q : Fin 128), i = ix2 r q := ⟨i 0, i 1, eq_ix2 i⟩
  rw [ref_relu_apply]
  generalize Cert.ReferenceIdeal.Read.val_main_v43 (F := Ideal) x0 x1 x2 = Z
  have hb : shapeCast Cert.KernelIdeal.S1x128 x3 Cert.KernelIdeal.Facts₀.shapeCasts_S128_S1x128 (ix2 (0 : Fin 1) q)
      = x3 (ix1 q) :=
    shapeCast_apply x3 Cert.KernelIdeal.Facts₀.shapeCasts_S128_S1x128 (ix2 (0 : Fin 1) q) (ix1 q)
      (by rw [Shape.rowMajor_val_one, Shape.rowMajor_val_two]; show q.val = 0 * 128 + q.val; omega)
  unfold Cert.KernelIdeal.Whole.biasRelu
  refine (rowwise_row _ Z _ r q).trans ?_
  refine (ker_relu_apply (tile Z (tileIx r.val)) _ (inTile r.val) q).trans ?_
  rw [tile_apply, hb]

/-- The second projection: the kernel's tile-by-tile product of the rectified hidden features with the second weight
    is, as a whole array, the reference's contraction of the same two arrays: both are at `(r, q)` the sum over `k` of
    the hidden feature at `(r, k)` times `x4 (k, q)`. The hidden features stay an opaque function. -/
theorem dense2_eq (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal))
    (x4 : (⟨Cert.ReferenceIdeal.S128x16, .f32⟩ : BufTy).Contents (Elt Ideal)) :
    Cert.KernelIdeal.Whole.dense2 (F := Ideal) (Cert.ReferenceIdeal.Read.val_main_v47 (F := Ideal) x0 x1 x2 x3) x4
      = Cert.ReferenceIdeal.Read.val_main_v48 (F := Ideal) x0 x1 x2 x3 x4 := by
  funext i
  obtain ⟨r, q, rfl⟩ : ∃ (r : Fin 100000) (q : Fin 16), i = ix2 r q := ⟨i 0, i 1, eq_ix2 i⟩
  rw [ref_linear2_apply]
  generalize Cert.ReferenceIdeal.Read.val_main_v47 (F := Ideal) x0 x1 x2 x3 = Y
  unfold Cert.KernelIdeal.Whole.dense2
  refine (rowwise_row _ Y x4 r q).trans ?_
  refine (ker_linear2_apply (tile Y (tileIx r.val)) x4 (inTile r.val) q).trans ?_
  refine Finset.sum_congr rfl fun k _ => ?_
  rw [tile_apply]

end Cert.Gcn.Stages

end
-- ==== Proof.SoftmaxRows.lean ====
/-
  The row-wise log-softmax of a matrix with sixteen columns, on the extended reals: each entry of a row, less the
  row's largest entry, less the logarithm of the sum over the row of the exponentials of the entries so shifted.
  Both programs compute this function of the rows of (activations + bias): the kernel's last stage on a block of
  5000 rows, the reference's last stage on all 100000 rows.
-/
import proofs.«100217_j16801912062046_1_alg».proof.Proof.Gen.KernelIdeal.Skeleton
import proofs.«100217_j16801912062046_1_alg».proof.Proof.RefRead
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.SoftmaxRows

open Idealize.ShloMosaic Idealize.ShloMosaic.ValueIdx

/-! ## The row function -/

/-- The largest of a row's sixteen entries: the fold of the maximum over them, from -∞. -/
def rowMax (z : Fin 16 → EReal) : EReal := (Finset.univ : Finset (Fin 16)).fold max ⊥ z

/-- The log-softmax of a row at column q: the entry less the row's maximum, less the logarithm of the sum over
    the row of the exponentials of the entries less the maximum. -/
def lsmRow (z : Fin 16 → EReal) (q : Fin 16) : EReal :=
  (z q - rowMax z) - Ideal.log (∑ k : Fin 16, Ideal.exp (z k - rowMax z))

/-! ## A column of per-row values spread along the rows -/

section Column
variable {α : Type}

/-- A one-column matrix [a, 1] broadcast to [a, b] reads, at (p, q), row p's single entry. -/
theorem broadcastTo_a1_ab_apply {a b : ℕ} (c : (⟨2, ![a, 1]⟩ : Shape).Idx → α)
    (h : (⟨2, ![a, 1]⟩ : Shape).Broadcasts ⟨2, ![a, b]⟩) (p : Fin a) (q : Fin b) :
    broadcastTo ⟨2, ![a, b]⟩ c h (ix2 p q) = c (ix2 p (0 : Fin 1)) := by
  refine broadcastTo_apply c h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] viewed as the one-column matrix [a, 1] reads, at (p, 0), its entry p. -/
theorem shapeCast_a_a1_apply {a : ℕ} (w : (⟨1, ![a]⟩ : Shape).Idx → α)
    (h : (⟨1, ![a]⟩ : Shape).ShapeCasts ⟨2, ![a, 1]⟩) (p : Fin a) :
    shapeCast ⟨2, ![a, 1]⟩ w h (ix2 p (0 : Fin 1)) = w (ix1 p) := by
  refine shapeCast_apply w h (ix2 p (0 : Fin 1)) (ix1 p) ?_
  rw [Shape.rowMajor_val_one, Shape.rowMajor_val_two]
  show p.val = p.val * 1 + 0
  omega

/-- So a vector of per-row values, made a column and spread along the rows, reads row p's value at (p, q). -/
theorem column_apply {a b : ℕ} (w : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (q : Fin b) :
    broadcastTo ⟨2, ![a, b]⟩ (shapeCast ⟨2, ![a, 1]⟩ w h1) h2 (ix2 p q) = w (ix1 p) :=
  (broadcastTo_a1_ab_apply _ h2 p q).trans (shapeCast_a_a1_apply w h1 p)

end Column

/-! ## A reduction along the rows of a matrix with sixteen columns -/

/-- The index of a matrix over the row index (p) with column k inserted is (p, k). -/
theorem lift_row {a : ℕ} (h : (⟨2, ![a, 16]⟩ : Shape).Reduces [1] ⟨1, ![a]⟩) (p : Fin a) (k : Fin 16) :
    h.lift (ix1 p) k = ix2 p k := by
  funext c
  apply Fin.ext
  match c with
  | ⟨0, _⟩ => rfl
  | ⟨1, _⟩ => rfl

/-- The bit pattern of -∞ in binary32 is the extended real -∞. -/
theorem ofBits_neg_inf : Ideal.ofBits .f32 0xFF800000#32 = (⊥ : EReal) := by simp [Ideal.ofBits, Ideal.ieee]

/-- The maximum along each row, from -∞, is the row's largest entry. -/
theorem multiReduction_max_row {a : ℕ} (src : FVec Ideal ⟨2, ![a, 16]⟩ .f32)
    (h : (⟨2, ![a, 16]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p) = rowMax fun k => src (ix2 p k) := by
  refine (Ideal.multiReduction_maximumf_single src _ h hφ hacc (ix1 p)).trans ?_
  have e1 : (src ∘ h.lift (ix1 p)) = fun k : Fin 16 => src (ix2 p k) :=
    funext fun k => congrArg src (lift_row h p k)
  unfold rowMax
  rw [e1, Ideal.ofBits_def, ofBits_neg_inf]
  rfl

/-- The sum along each row, from zero, is the sum of the row's sixteen entries. -/
theorem multiReduction_add_row {a : ℕ} (src : FVec Ideal ⟨2, ![a, 16]⟩ .f32)
    (h : (⟨2, ![a, 16]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin 16, src (ix2 p k) := by
  refine (Ideal.multiReduction_add_single src _ h hφ hacc (ix1 p)).trans ?_
  exact Finset.sum_congr rfl fun k _ => congrArg src (lift_row h p k)

/-! ## The log-softmax of the rows of a matrix, as the vector operations compute it -/

/-- Take the maximum along each row from -∞, spread it back along the row and subtract; exponentiate; sum along each
    row from zero; take the logarithm of that column, spread it along the row and subtract. At (p, q) the result is
    the log-softmax of row p at column q. -/
theorem logsoftmax_apply {a : ℕ} (v : FVec Ideal ⟨2, ![a, 16]⟩ .f32)
    (hred : (⟨2, ![a, 16]⟩ : Shape).Reduces [1] ⟨1, ![a]⟩)
    (hsc : (⟨1, ![a]⟩ : Shape).ShapeCasts ⟨2, ![a, 1]⟩)
    (hbc : (⟨2, ![a, 1]⟩ : Shape).Broadcasts ⟨2, ![a, 16]⟩)
    (hφ : FKind.Formats .f32)
    (hmax : (0xFF800000#32 : BitVec 32) = FKind.maximumf.neutral .f32 hφ)
    (hadd : (0x00000000#32 : BitVec 32) = FKind.add.neutral .f32 hφ) (p : Fin a) (q : Fin 16) :
    subf
        (subf v (broadcastTo ⟨2, ![a, 16]⟩
          (shapeCast ⟨2, ![a, 1]⟩ (multiReduction .maximumf [1] ⟨1, ![a]⟩ v 0xFF800000#32 hred hφ hmax) hsc) hbc))
        (broadcastTo ⟨2, ![a, 16]⟩
          (log (shapeCast ⟨2, ![a, 1]⟩
            (multiReduction .add [1] ⟨1, ![a]⟩
              (exp (subf v (broadcastTo ⟨2, ![a, 16]⟩
                (shapeCast ⟨2, ![a, 1]⟩ (multiReduction .maximumf [1] ⟨1, ![a]⟩ v 0xFF800000#32 hred hφ hmax) hsc) hbc)))
              0x00000000#32 hred hφ hadd) hsc)) hbc)
        (ix2 p q)
      = lsmRow (fun k => v (ix2 p k)) q := by
  have hm : ∀ k : Fin 16, broadcastTo ⟨2, ![a, 16]⟩
      (shapeCast ⟨2, ![a, 1]⟩ (multiReduction .maximumf [1] ⟨1, ![a]⟩ v 0xFF800000#32 hred hφ hmax) hsc) hbc (ix2 p k)
        = rowMax fun k => v (ix2 p k) :=
    fun k => (column_apply _ hsc hbc p k).trans (multiReduction_max_row v hred hφ hmax p)
  generalize broadcastTo ⟨2, ![a, 16]⟩
      (shapeCast ⟨2, ![a, 1]⟩ (multiReduction .maximumf [1] ⟨1, ![a]⟩ v 0xFF800000#32 hred hφ hmax) hsc) hbc = M at hm ⊢
  show (v (ix2 p q) - M (ix2 p q))
      - broadcastTo ⟨2, ![a, 16]⟩ (log (shapeCast ⟨2, ![a, 1]⟩
          (multiReduction .add [1] ⟨1, ![a]⟩ (exp (subf v M)) 0x00000000#32 hred hφ hadd) hsc)) hbc (ix2 p q) = _
  rw [broadcastTo_a1_ab_apply]
  show (v (ix2 p q) - M (ix2 p q))
      - Ideal.log (shapeCast ⟨2, ![a, 1]⟩
          (multiReduction .add [1] ⟨1, ![a]⟩ (exp (subf v M)) 0x00000000#32 hred hφ hadd) hsc (ix2 p (0 : Fin 1))) = _
  rw [shapeCast_a_a1_apply, multiReduction_add_row, hm q]
  unfold lsmRow
  refine congrArg (fun s => (v (ix2 p q) - rowMax fun k => v (ix2 p k)) - Ideal.log s) ?_
  refine Finset.sum_congr rfl fun k _ => ?_
  show Ideal.exp (v (ix2 p k) - M (ix2 p k)) = _
  rw [hm k]

/-! ## The host's maximum along the rows -/

/-- The host's reduction by the maximum along each row, from an initial value that is -∞, is the row's largest
    entry. -/
theorem hostReduce_max_row {a : ℕ} {u : Shape} (Z : (⟨2, ![a, 16]⟩ : Shape).Idx → EReal) (init : u.Idx → EReal)
    (h' : (⟨2, ![a, 16]⟩ : Shape).ReducesTo [1] ⟨1, ![a]⟩) (h : (⟨2, ![a, 16]⟩ : Shape).Reduces [1] ⟨1, ![a]⟩)
    (hu : 0 < u.numel) (hinit : init (Shape.Idx.first hu) = ⊥) (p : Fin a) :
    Host.reduce (FloatOps.maximumf (F := Ideal) (φ := .f32)) Z init h' hu (ix1 p) = rowMax fun k => Z (ix2 p k) := by
  refine (Host.reduce_eq_fold_single (FloatOps.maximumf (F := Ideal) (φ := .f32)) Z init h' h hu (ix1 p)).trans ?_
  have e1 : (Z ∘ h.lift (ix1 p)) = fun k : Fin 16 => Z (ix2 p k) :=
    funext fun k => congrArg Z (lift_row h p k)
  unfold rowMax
  rw [e1, hinit]
  rfl

/-! ## The kernel's last stage -/

section Kernel
open Cert.KernelIdeal Cert.KernelIdeal.Gen
variable [Cert.KernelIdeal.Facts]

/-- The kernel's last stage on a block of 5000 rows: at (p, q) it is the log-softmax, at column q, of row p of the
    block plus the bias row. -/
theorem ker_logsoftmax_apply (x0 : Vec Ideal Cert.KernelIdeal.S5000x16 .f32) (x1 : Vec Ideal Cert.KernelIdeal.S1x16 .f32)
    (p : Fin 5000) (q : Fin 16) :
    Cert.KernelIdeal.Gen.k3_pay1 (F := Ideal) x0 x1 (ix2 p q)
      = lsmRow (fun k => x0 (ix2 p k) + x1 (ix2 (0 : Fin 1) k)) q := by
  unfold Cert.KernelIdeal.Gen.k3_pay1
  refine (logsoftmax_apply (a := 5000) _ _ _ _ _ _ _ p q).trans ?_
  refine congrArg (fun z => lsmRow z q) (funext fun k => ?_)
  show shapeCast S5000x16 x0 _ (ix2 p k) + broadcastTo S5000x16 (shapeCast S1x16 x1 _) _ (ix2 p k) = _
  rw [shapeCast_self, shapeCast_self, broadcastTo_1b_ab_apply]

end Kernel

/-! ## The reference's last stage -/

section Reference
open Cert.ReferenceIdeal Cert.ReferenceIdeal.Read
variable [Cert.ReferenceIdeal.Facts]

/-- The reference's last stage on all 100000 rows: at (r, q) it is the log-softmax, at column q, of row r of the
    second layer's aggregated activations plus the bias. -/
theorem ref_logsoftmax_apply
    (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S128x16, .f32⟩ : BufTy).Contents (Elt Ideal)) (x5 : (⟨S16, .f32⟩ : BufTy).Contents (Elt Ideal))
    (r : Fin 100000) (q : Fin 16) :
    Cert.ReferenceIdeal.Read.val_main_v65 (F := Ideal) x0 x1 x2 x3 x4 x5 (ix2 r q)
      = lsmRow (fun k => Cert.ReferenceIdeal.Read.val_main_v61 (F := Ideal) x0 x1 x2 x3 x4 (ix2 r k) + x5 (ix1 k)) q := by
  -- row r of the matrix the log-softmax is applied to: the aggregated activations plus the bias
  have hZ : ∀ k : Fin 16, val_main_v64 (F := Ideal) x0 x1 x2 x3 x4 x5 (ix2 r k)
      = val_main_v61 (F := Ideal) x0 x1 x2 x3 x4 (ix2 r k) + x5 (ix1 k) := by
    intro k
    rw [val_main_v64_apply, val_main_v63_apply, val_main_v62_apply]
    exact congrArg (fun t => val_main_v61 (F := Ideal) x0 x1 x2 x3 x4 (ix2 r k) + x5 t)
      (funext fun a => Fin.ext (by match a with | ⟨0, _⟩ => rfl))
  -- the column of row maxima spread along the rows: the maximum with -∞ changes nothing
  have hmax : ∀ k : Fin 16, val_main_call2_v4 (F := Ideal) x0 x1 x2 x3 x4 x5 (ix2 r k)
      = rowMax fun k => val_main_v64 (F := Ideal) x0 x1 x2 x3 x4 x5 (ix2 r k) := by
    intro k
    have ei : idx_main_call2_v3 (idx_main_call2_v4 (ix2 r k)) = ix1 r :=
      funext fun a => Fin.ext (by match a with | ⟨0, _⟩ => rfl)
    rw [val_main_call2_v4_apply, val_main_call2_v3_apply, val_main_call2_v2_apply, val_main_call2_v1_apply,
      val_main_call2_cst_0_apply, ei, Ideal.maximumf_def, Ideal.ofBits_def, ofBits_neg_inf, max_bot_left]
    unfold val_main_call2_v0
    generalize val_main_v64 (F := Ideal) x0 x1 x2 x3 x4 x5 = Z
    exact hostReduce_max_row Z _ _ (by decide) _
      (by rw [val_main_call2_cst_apply, Ideal.ofBits_def, ofBits_neg_inf]) r
  -- the exponentials summed along row r
  have hsum : ∀ k : Fin 16, val_main_call2_v6 (F := Ideal) x0 x1 x2 x3 x4 x5
        (idx_main_call2_v7 (idx_main_call2_v8 (idx_main_call2_v10 (ix2 r q))) k)
      = Ideal.exp (val_main_v64 (F := Ideal) x0 x1 x2 x3 x4 x5 (ix2 r k)
          - rowMax fun k => val_main_v64 (F := Ideal) x0 x1 x2 x3 x4 x5 (ix2 r k)) := by
    intro k
    have ei : idx_main_call2_v7 (idx_main_call2_v8 (idx_main_call2_v10 (ix2 r q))) k = ix2 r k :=
      funext fun a => Fin.ext (by match a with | ⟨0, _⟩ => rfl | ⟨1, _⟩ => rfl)
    rw [ei, val_main_call2_v6_apply, val_main_call2_v5_apply, hmax k]
    generalize val_main_v64 (F := Ideal) x0 x1 x2 x3 x4 x5 = Z
    rfl
  have hrow : val_main_v65 (F := Ideal) x0 x1 x2 x3 x4 x5 (ix2 r q)
      = lsmRow (fun k => val_main_v64 (F := Ideal) x0 x1 x2 x3 x4 x5 (ix2 r k)) q := by
    rw [val_main_v65_apply, val_main_call2_v10_apply, val_main_call2_v9_apply, val_main_call2_v8_apply,
      val_main_call2_v7_apply, val_main_call2_cst_1_apply, val_main_call2_v5_apply, hmax q,
      Finset.sum_congr rfl fun k _ => hsum k, Ideal.ofBits_def, Ideal.ofBits_zero_f32, zero_add]
    generalize val_main_v64 (F := Ideal) x0 x1 x2 x3 x4 x5 = Z
    rfl
  rw [hrow]
  exact congrArg (fun z => lsmRow z q) (funext hZ)

end Reference

end Cert.Gcn.SoftmaxRows

end
-- ==== Proof.StageSoftmax.lean ====
/-
  The last stage of the two programs is one function. The kernel's result array is, row by row, the log-softmax of
  the row of its first operand plus the bias row; computed tile by tile, a row of a tile is a row of the whole array,
  and the bias row is the bias vector viewed as a matrix of one row. The reference's last stage is the log-softmax of
  the same rows plus the same bias. So on the reference's own second-layer activations the two arrays are equal.
-/
import proofs.«100217_j16801912062046_1_alg».proof.Proof.SoftmaxRows
import proofs.«100217_j16801912062046_1_alg».proof.Proof.SoftmaxArray
import Idealize.ShloMosaic.Lib.ValueIdx
import Idealize.ShloMosaic.Lib.ValueLayout

noncomputable section

namespace Cert.Gcn.Stages

open Idealize.ShloMosaic Idealize.ShloMosaic.ValueIdx Cert.Gcn.Tiles Cert.Gcn.SoftmaxRows

/-- The kernel's bias-and-log-softmax pass, applied to the reference's aggregated second-layer activations and to the
    bias vector viewed as a one-row matrix, is the reference's last stage: both are, at (r, q), the log-softmax at
    column q of row r of the activations plus the bias. -/
theorem logsoftmax_eq
    (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal))
    (x4 : (⟨Cert.ReferenceIdeal.S128x16, .f32⟩ : BufTy).Contents (Elt Ideal))
    (x5 : (⟨Cert.ReferenceIdeal.S16, .f32⟩ : BufTy).Contents (Elt Ideal)) :
    Cert.KernelIdeal.Whole.biasLogSoftmax (F := Ideal)
        (Cert.ReferenceIdeal.Read.val_main_v61 (F := Ideal) x0 x1 x2 x3 x4)
        (shapeCast Cert.KernelIdeal.S1x16 x5 Cert.KernelIdeal.Facts₀.shapeCasts_S16_S1x16)
      = Cert.ReferenceIdeal.Read.val_main_v65 (F := Ideal) x0 x1 x2 x3 x4 x5 := by
  funext i
  obtain ⟨r, q, rfl⟩ : ∃ (r : Fin 100000) (q : Fin 16), i = ix2 r q := ⟨i 0, i 1, eq_ix2 i⟩
  -- the reference's side, as the log-softmax of row r
  refine Eq.trans ?_ (ref_logsoftmax_apply x0 x1 x2 x3 x4 x5 r q).symm
  -- the activations enter only through their entries
  generalize Cert.ReferenceIdeal.Read.val_main_v61 (F := Ideal) x0 x1 x2 x3 x4 = Z
  -- the kernel's side: row r lies in tile r / 5000 at place r % 5000
  unfold Cert.KernelIdeal.Whole.biasLogSoftmax
  refine (rowwise_row _ Z _ r q).trans ?_
  refine (ker_logsoftmax_apply _ _ (inTile r.val) q).trans ?_
  refine congrArg (fun z => lsmRow z q) (funext fun k => ?_)
  -- the tile's row is the array's row, and the one-row matrix's entry is the vector's
  rw [tile_apply, shapeCast_a_1a_apply]

end Cert.Gcn.Stages

end
-- ==== Proof.lean ====
/-
  A two-layer graph convolution, the kernel program against its reference, over the extended reals.

  Both programs compute, from node features x, an edge list, and two weight matrices with biases,
      log_softmax_rows ( Agg ( relu ( Agg (x W1) + b1 ) W2 ) + b2 ),
  where Agg gathers rows along the edges' sources (self loops appended), weights each by the product of its end points'
  inverse-square-root degrees, and sums them into the edges' destinations. The normalisation and the two aggregations are the
  same host operations in both programs. The kernel program computes the two dense projections, the bias-and-relu and the
  bias-and-log-softmax in four tiled regions of 20 tiles of 5000 rows each; the reference computes them as whole-array
  operations. Each region's result array is one row-wise function of its operand arrays (a tile of rows depends only on the
  same rows of the first operand), and on the extended reals that function is the reference's operation: a product into a
  zero accumulator is the sum over the contracted axis, a change of float format is the identity, the row maximum with
  minus infinity is the row maximum, and the kernel's exponential and logarithm are the host's. No law that needs finite
  entries is used, so the precondition is never opened. The idealization rewrote nothing, so `preserves` is `True`.

  The three frames: the two kernel programs' are the generated frame certificates; the reference's is its run with the
  result dropped.
-/
import proofs.«100217_j16801912062046_1_alg».proof.Defs
import proofs.«100217_j16801912062046_1_alg».proof.Proof.Gen.Kernel
import proofs.«100217_j16801912062046_1_alg».proof.Proof.Gen.Kernel.Skeleton
import proofs.«100217_j16801912062046_1_alg».proof.Proof.Gen.Kernel.Launch
import proofs.«100217_j16801912062046_1_alg».proof.Proof.Gen.Kernel.Points
import proofs.«100217_j16801912062046_1_alg».proof.Proof.Gen.Kernel.Frame
import proofs.«100217_j16801912062046_1_alg».proof.Proof.Gen.KernelIdeal
import proofs.«100217_j16801912062046_1_alg».proof.Proof.Gen.KernelIdeal.Skeleton
import proofs.«100217_j16801912062046_1_alg».proof.Proof.Gen.KernelIdeal.Launch
import proofs.«100217_j16801912062046_1_alg».proof.Proof.Gen.KernelIdeal.Points
import proofs.«100217_j16801912062046_1_alg».proof.Proof.Gen.KernelIdeal.Frame
import proofs.«100217_j16801912062046_1_alg».proof.Proof.Gen.ReferenceIdeal
import proofs.«100217_j16801912062046_1_alg».proof.Proof.RefRun
import proofs.«100217_j16801912062046_1_alg».proof.Proof.RefRead
import proofs.«100217_j16801912062046_1_alg».proof.Proof.Gen.Pre_finite_inputs
import Idealize.ShloMosaic.Adequacy
import Idealize.ShloMosaic.Init
import proofs.«100217_j16801912062046_1_alg».proof.Proof.KernelRun
import proofs.«100217_j16801912062046_1_alg».proof.Proof.Layers
import proofs.«100217_j16801912062046_1_alg».proof.Proof.RefValue
import proofs.«100217_j16801912062046_1_alg».proof.Proof.StageLinear
import proofs.«100217_j16801912062046_1_alg».proof.Proof.StageSoftmax

noncomputable section

namespace Cert.Proof

open Idealize.ShloMosaic Idealize.SL.Sem

/-- Each region's tile-by-tile function is the reference's whole-array operation. -/
theorem stages : Cert.KernelIdeal.Whole.Stages :=
  ⟨Cert.Gcn.Stages.dense1_eq, Cert.Gcn.Stages.relu_eq, Cert.Gcn.Stages.dense2_eq, Cert.Gcn.Stages.logsoftmax_eq⟩

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- Run from memories that agree on the six arguments, both programs end with their result arrays at ONE function of the
    arguments: the reference's log-softmax stage. -/
theorem algebraic : Cert.algebraic_KernelIdeal_ReferenceIdeal := by
  intro m ρ m' ρ' _ hagree
  refine ⟨fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Whole.kernel_result m ρ c stages), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.RefValue.run (F := Ideal) m' ρ')
    obtain ⟨e0, e1, e2, e3, e4, e5⟩ := hagree c
    rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
